-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S1024x1024 : Shape := ⟨2, ![1024, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  main_v18

def fn {F : FTy → Type} [FloatOps F] (main_arg0 : FVec F S4096x1024 .f32) (main_arg1 : FVec F S1024x1024 .f32) (main_arg2 : FVec F S1024x1024 .f32) (main_arg3 : FVec F S1024x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_v13 main_v16
-- ==== Kernel.lean ====
abbrev S4096x1024 : Shape := ⟨2, ![4096, 1024]⟩
abbrev S1024x1024 : Shape := ⟨2, ![1024, 1024]⟩
abbrev S512x1024 : Shape := ⟨2, ![512, 1024]⟩
abbrev S512x1 : Shape := ⟨2, ![512, 1]⟩
abbrev S512 : Shape := ⟨1, ![512]⟩

abbrev nBuf : Space → Nat
  | .hbm => 8
  | .vmem => 20
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S4096x1024, .bf16⟩
  | .hbm, ⟨5, _⟩ => ⟨S4096x1024, .bf16⟩
  | .hbm, ⟨6, _⟩ => ⟨S4096x1024, .bf16⟩
  | .hbm, ⟨7, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S4096x1024, .bf16⟩
  | .local _ .vmem, ⟨14, _⟩ => ⟨S4096x1024, .bf16⟩
  | .local _ .vmem, ⟨15, _⟩ => ⟨S512x1024, .f32⟩
  | .local _ .vmem, ⟨16, _⟩ => ⟨S512x1024, .f32⟩
  | .local _ .vmem, ⟨17, _⟩ => ⟨S512x1, .f32⟩
  | .local _ .vmem, ⟨18, _⟩ => ⟨S512x1, .f32⟩
  | .local _ .vmem, ⟨19, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg3_1 : Ref sig .tc := ⟨.vmem, 16, rfl⟩
abbrev cc1_scratch0 : Ref sig .tc := ⟨.vmem, 17, rfl⟩
abbrev cc1_scratch1 : Ref sig .tc := ⟨.vmem, 18, rfl⟩
abbrev cc1_scratch2 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem2_0 : DmaSem sig := 14
abbrev cc1_sem3_0 : DmaSem sig := 15
abbrev cc1_sem3_1 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![8], ![false]⟩

@[reducible] def k1_t1_loop : Scf.Loop 32 :=
  let c0_i32 : BitVec 32 := 0#32
  let c4_i32 : BitVec 32 := 4#32
  let v14 : BitVec 32 := Scalar.addi c0_i32 c4_i32
  let c1_i32 : BitVec 32 := 1#32
  ⟨c0_i32, v14, c1_i32⟩
def k1_mult1 (k1_t1 : Fin k1_t1_loop.trips) : BitVec 32 :=
  let c0_i32_17 : BitVec 32 := 0#32
  let c0_i32 : BitVec 32 := 0#32
  let c1_i32 : BitVec 32 := 1#32
  let arg8 : BitVec 32 := Scf.iv c0_i32 c1_i32 k1_t1
  let c1_i32_16 : BitVec 32 := 1#32
  let v20 : BitVec 32 := Scalar.muli arg8 c1_i32_16
  let v21 : BitVec 32 := Scalar.addi c0_i32_17 v20
  let c1024_i32 : BitVec 32 := 1024#32
  let v22 : BitVec 32 := Scalar.muli v21 c1024_i32
  v22
def k1_off1 (k1_t1 : Fin k1_t1_loop.trips) : Fin 2 → Nat :=
  let c0_i32_17 : BitVec 32 := 0#32
  let c0_i32 : BitVec 32 := 0#32
  let c1_i32 : BitVec 32 := 1#32
  let arg8 : BitVec 32 := Scf.iv c0_i32 c1_i32 k1_t1
  let c1_i32_16 : BitVec 32 := 1#32
  let v20 : BitVec 32 := Scalar.muli arg8 c1_i32_16
  let v21 : BitVec 32 := Scalar.addi c0_i32_17 v20
  let c1024_i32 : BitVec 32 := 1024#32
  let v22 : BitVec 32 := Scalar.muli v21 c1024_i32
  let v23 : BitVec 32 := v22
  let v24 : Index := Scalar.indexCast v23
  let c0_18 : Index := 0#32
  ![v24.toNat, 0]
def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4096x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S4096x1024 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S512x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  inb_S512x1024_S512x1024_0_0 : ∀ a, (![0, 0] : Fin 2 → Nat) a + S512x1024.size a ≤ S512x1024.size a
  h_S512x1024 : 0 < S512x1024.numel
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  packedbf16_S512x1024_S512x1024_0_0 : (Rect.unit (s := S512x1024) ![0, 0] S512x1024.size inb_S512x1024_S512x1024_0_0).PackedRows (EltTy.packing .bf16)
  inb_S512x1_S512x1_0_0 : ∀ a, (![0, 0] : Fin 2 → Nat) a + S512x1.size a ≤ S512x1.size a
  h_S512x1 : 0 < S512x1.numel
  shapeCasts_S512x1_S512x1 : S512x1.ShapeCasts S512x1
  shapeCasts_S512x1024_S512x1024 : S512x1024.ShapeCasts S512x1024
  shapeCasts_S1024x1024_S1024x1024 : S1024x1024.ShapeCasts S1024x1024
  reduces_S512x1024_S512 : S512x1024.Reduces [1] S512
  shapeCasts_S512_S512x1 : S512.ShapeCasts S512x1
  broadcasts_S512x1_S512x1024 : S512x1.Broadcasts S512x1024
  dot_S512x1024_S1024x1024_S512x1024_1_0_0_1_n_n_wf : DotDims.WF S512x1024 S1024x1024 S512x1024 [1] [0] [0] [1] [] []
  dot_S512x1024_S1024x1024_S512x1024_1_1_0_0_n_n_wf : DotDims.WF S512x1024 S1024x1024 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x1024.size a
  hwx0_0 : ∀ i : grid0.Coords, EltTy.bits .f32 = 32 ∨ (Rect.block (s := S4096x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .f32 = 32 ∨ (Rect.block (s := S1024x1024) S1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .f32 = 32 ∨ (Rect.block (s := S1024x1024) S1024x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .f32 = 32 ∨ (Rect.block (s := S1024x1024) S1024x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1024.size a ≤ S4096x1024.size a
  hwx0_4 : ∀ i : grid0.Coords, EltTy.bits .bf16 = 32 ∨ (Rect.block (s := S4096x1024) S512x1024.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1024.size a ≤ S4096x1024.size a
  hwx0_5 : ∀ i : grid0.Coords, EltTy.bits .bf16 = 32 ∨ (Rect.block (s := S4096x1024) S512x1024.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x1024.size a ≤ S4096x1024.size a
  hwx0_6 : ∀ i : grid0.Coords, EltTy.bits .bf16 = 32 ∨ (Rect.block (s := S4096x1024) S512x1024.size (cc0_transform_6 i) (hinb0_6 i)).WholeWords (EltTy.packing .bf16)
  hrank1 : 0 < grid1.rank
  k1_t1_ok : k1_t1_loop.OK
  k1_mult1_dvd : ∀ k1_t1 : Fin k1_t1_loop.trips, 1024 ∣ (k1_mult1 k1_t1).toNat
  k1_off1_inb : ∀ k1_t1 : Fin k1_t1_loop.trips, ∀ a, (k1_off1 k1_t1) a + S1024x1024.size a ≤ S4096x1024.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1024.size a ≤ S4096x1024.size a
  hwx1_0 : ∀ i : grid1.Coords, EltTy.bits .bf16 = 32 ∨ (Rect.block (s := S4096x1024) S512x1024.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S4096x1024.size a ≤ S4096x1024.size a
  hwx1_1 : ∀ i : grid1.Coords, EltTy.bits .bf16 = 32 ∨ (Rect.block (s := S4096x1024) S4096x1024.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S4096x1024.size a ≤ S4096x1024.size a
  hwx1_2 : ∀ i : grid1.Coords, EltTy.bits .bf16 = 32 ∨ (Rect.block (s := S4096x1024) S4096x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x1024.size a ≤ S4096x1024.size a
  hwx1_3 : ∀ i : grid1.Coords, EltTy.bits .f32 = 32 ∨ (Rect.block (s := S4096x1024) S512x1024.size (cc1_transform_3 i) (hinb1_3 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0_0) S512x1024.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_1) S512x1024.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0_2) S512x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v0_0) S512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0_1) S4096x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v0_2) S4096x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v1) S512x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S4096x1024 : Shape := ⟨2, ![4096, 1024]⟩
abbrev S1024x1024 : Shape := ⟨2, ![1024, 1024]⟩
abbrev S_ : Shape := ⟨0, ![]⟩
abbrev S1024x4096 : Shape := ⟨2, ![1024, 4096]⟩
abbrev S4096x4096 : Shape := ⟨2, ![4096, 4096]⟩
abbrev S4096 : Shape := ⟨1, ![4096]⟩
abbrev S4096x1 : Shape := ⟨2, ![4096, 1]⟩

abbrev nBuf : Space → Nat
  | .hbm => 30
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S1024x4096, .f32⟩
  | .hbm, ⟨12, _⟩ => ⟨S4096x4096, .f32⟩
  | .hbm, ⟨13, _⟩ => ⟨S4096x4096, .f32⟩
  | .hbm, ⟨14, _⟩ => ⟨S4096x4096, .f32⟩
  | .hbm, ⟨15, _⟩ => ⟨S_, .f32⟩
  | .hbm, ⟨16, _⟩ => ⟨S4096, .f32⟩
  | .hbm, ⟨17, _⟩ => ⟨S_, .f32⟩
  | .hbm, ⟨18, _⟩ => ⟨S4096, .f32⟩
  | .hbm, ⟨19, _⟩ => ⟨S4096, .f32⟩
  | .hbm, ⟨20, _⟩ => ⟨S4096x1, .f32⟩
  | .hbm, ⟨21, _⟩ => ⟨S4096x4096, .f32⟩
  | .hbm, ⟨22, _⟩ => ⟨S4096x4096, .f32⟩
  | .hbm, ⟨23, _⟩ => ⟨S4096x4096, .f32⟩
  | .hbm, ⟨24, _⟩ => ⟨S_, .f32⟩
  | .hbm, ⟨25, _⟩ => ⟨S4096, .f32⟩
  | .hbm, ⟨26, _⟩ => ⟨S4096x1, .f32⟩
  | .hbm, ⟨27, _⟩ => ⟨S4096x4096, .f32⟩
  | .hbm, ⟨28, _⟩ => ⟨S4096x4096, .f32⟩
  | .hbm, ⟨29, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩

abbrev nD : Nat := 1
abbrev τ : Topo := Topo.v7x

variable {F : FTy → Type} [FloatOps F]

class Facts₀ : Prop where
  transposes_S4096x1024_S1024x4096_1_0 : S4096x1024.Transposes [1, 0] S1024x4096
  bcast_S_S4096x4096 : S_.BroadcastsInDim S4096x4096 (![] : Fin 0 → Fin S4096x4096.rank)
  reducesTo_S4096x4096_S4096_d1 : S4096x4096.ReducesTo [1] S4096
  h_S_ : 0 < S_.numel
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x4096_0_1 : S4096x1.BroadcastsInDim S4096x4096 (![0, 1] : Fin 2 → Fin S4096x4096.rank)
  dot_S4096x1024_S1024x1024_S4096x1024_1_0_0_1_n_n_wf : DotDims.WF S4096x1024 S1024x1024 S4096x1024 [1] [0] [0] [1] [] []
  dot_S4096x1024_S1024x4096_S4096x4096_1_0_0_1_n_n_wf : DotDims.WF S4096x1024 S1024x4096 S4096x4096 [1] [0] [0] [1] [] []
  dot_S4096x4096_S4096x1024_S4096x1024_1_0_0_1_n_n_wf : DotDims.WF S4096x4096 S4096x1024 S4096x1024 [1] [0] [0] [1] [] []

variable [Facts₀]

def dot_S4096x1024_S1024x1024_S4096x1024_1_0_0_1_n_n : DotDims S4096x1024 S1024x1024 S4096x1024 where
  lhsContracting := [1]
  rhsContracting := [0]
  lhsNonContracting := [0]
  rhsNonContracting := [1]
  lhsBatch := []
  rhsBatch := []
  wf := dot_S4096x1024_S1024x1024_S4096x1024_1_0_0_1_n_n_wf
def dot_S4096x1024_S1024x4096_S4096x4096_1_0_0_1_n_n : DotDims S4096x1024 S1024x4096 S4096x4096 where
  lhsContracting := [1]
  rhsContracting := [0]
  lhsNonContracting := [0]
  rhsNonContracting := [1]
  lhsBatch := []
  rhsBatch := []
  wf := dot_S4096x1024_S1024x4096_S4096x4096_1_0_0_1_n_n_wf
def dot_S4096x4096_S4096x1024_S4096x1024_1_0_0_1_n_n : DotDims S4096x4096 S4096x1024 S4096x1024 where
  lhsContracting := [1]
  rhsContracting := [0]
  lhsNonContracting := [0]
  rhsNonContracting := [1]
  lhsBatch := []
  rhsBatch := []
  wf := dot_S4096x4096_S4096x1024_S4096x1024_1_0_0_1_n_n_wf

class Facts : Prop extends Facts₀ where

variable [Facts]
-- ==== Proof.Spec.lean ====
/-
  The specification both programs are read against, over the extended reals, entry by entry.

  x is the 4096×1024 input, wq wk wv the three 1024×1024 weights.  `proj x w i d` is entry (i, d) of the product x·w.
  The first kernel leaves q = (x·wq)·2⁻⁵, k = x·wk, v = x·wv (`qArr`, `plainArr`).

  The reference: scores s i j = (∑ e, (x·wq) i e · (x·wk) j e) · (1 / √1024), the row maximum from -∞, the shifted
  exponentials, their row sum from 0, the quotient, and the product with x·wv (`refOut`).

  The second kernel, for row i, walks the 4096 keys in 4 blocks of 1024 (key b of block t is key b + 1024·t) carrying a
  maximum m, a sum l and, per column d, a numerator a, from (-∞, 0, 0):
      m' = max m (max over the block of s),   l' = exp (m − m')·l + (0 + ∑ b, exp (s b − m')),
      a' = exp (m − m')·a + ∑ b, exp (s b − m') · v b d,
  and returns a / l (`kerOut`), where its scores s b = ∑ e, q i e · k (key) e already hold the factor 2⁻⁵.
-/
import Idealize.ShloMosaic.PureOps.Ideal
import Idealize.ShloMosaic.Lib.ValueIdx

noncomputable section

namespace Cert.Attn

open Idealize.ShloMosaic Idealize.ShloMosaic.ValueIdx

abbrev SX : Shape := ⟨2, ![4096, 1024]⟩
abbrev SW : Shape := ⟨2, ![1024, 1024]⟩

/-- The row and the column of an index of a 4096×1024 array, as literal-size coordinates. -/
abbrev row (j : SX.Idx) : Fin 4096 := ⟨(j 0).val, (j 0).isLt⟩
abbrev col (j : SX.Idx) : Fin 1024 := ⟨(j 1).val, (j 1).isLt⟩

/-- Entry (i, d) of the product x·w. -/
def proj (x : SX.Idx → EReal) (w : SW.Idx → EReal) (i : Fin 4096) (d : Fin 1024) : EReal :=
  ∑ e : Fin 1024, x (ix2 i e) * w (ix2 e d)

/-- The kernel's scale: the f32 word of 2⁻⁵ = 0.03125. -/
def c32 : EReal := Ideal.ofBits .f32 0x3D000000#32

/-- A product x·w as a whole array. -/
def plainArr (x : SX.Idx → EReal) (w : SW.Idx → EReal) : SX.Idx → EReal := fun j => proj x w (row j) (col j)

/-- The scaled product (x·w)·2⁻⁵ as a whole array. -/
def qArr (x : SX.Idx → EReal) (w : SW.Idx → EReal) : SX.Idx → EReal := fun j => proj x w (row j) (col j) * c32

/-! ## The reference -/

/-- The reference's scale 1 / √1024, as it computes it. -/
def cref : EReal := Ideal.div (Ideal.ofBits .f32 0x3F800000#32) (Ideal.sqrt (Ideal.ofBits .f32 0x44800000#32))

/-- The reference's score of query i against key j. -/
def score (x : SX.Idx → EReal) (wq wk : SW.Idx → EReal) (i j : Fin 4096) : EReal :=
  (∑ e : Fin 1024, proj x wq i e * proj x wk j e) * cref

/-- The reference's row maximum: the maximum with -∞ of the fold of max from -∞ over the keys. -/
def rowMax (x : SX.Idx → EReal) (wq wk : SW.Idx → EReal) (i : Fin 4096) : EReal :=
  max (Ideal.ofBits .f32 0xFF800000#32)
    ((Finset.univ : Finset (Fin 4096)).fold max (Ideal.ofBits .f32 0xFF800000#32) fun j => score x wq wk i j)

/-- The shifted exponential of one score. -/
def expo (x : SX.Idx → EReal) (wq wk : SW.Idx → EReal) (i j : Fin 4096) : EReal :=
  Ideal.exp (score x wq wk i j - rowMax x wq wk i)

/-- The row's sum of shifted exponentials, from the zero word. -/
def denom (x : SX.Idx → EReal) (wq wk : SW.Idx → EReal) (i : Fin 4096) : EReal :=
  Ideal.ofBits .f32 0x00000000#32 + ∑ j : Fin 4096, expo x wq wk i j

/-- The reference's result at (i, d). -/
def refOut (x : SX.Idx → EReal) (wq wk wv : SW.Idx → EReal) (i : Fin 4096) (d : Fin 1024) : EReal :=
  ∑ j : Fin 4096, Ideal.div (expo x wq wk i j) (denom x wq wk i) * proj x wv j d

/-! ## The second kernel -/

/-- Key `b` of block `t`. -/
abbrev key (t : Fin 4) (b : Fin 1024) : Fin 4096 := ⟨b.val + 1024 * t.val, by omega⟩

/-- The kernel's score of query row i against key b of block t, from the arrays q and k it is given. -/
def kscore (q k : SX.Idx → EReal) (i : Fin 4096) (t : Fin 4) (b : Fin 1024) : EReal :=
  ∑ e : Fin 1024, q (ix2 i e) * k (ix2 (key t b) e)

/-- One block's update of (maximum, sum, numerator of column d) for row i. -/
def kstep (q k v : SX.Idx → EReal) (i : Fin 4096) (d : Fin 1024) (t : Fin 4) (s : EReal × EReal × EReal) :
    EReal × EReal × EReal :=
  let m' := max s.1 ((Finset.univ : Finset (Fin 1024)).fold max ⊥ fun b => kscore q k i t b)
  (m',
   Ideal.exp (s.1 - m') * s.2.1 + (0 + ∑ b : Fin 1024, Ideal.exp (kscore q k i t b - m')),
   Ideal.exp (s.1 - m') * s.2.2 + ∑ b : Fin 1024, Ideal.exp (kscore q k i t b - m') * v (ix2 (key t b) d))

/-- The triple after the first n blocks, from (-∞, 0, 0). -/
def krun (q k v : SX.Idx → EReal) (i : Fin 4096) (d : Fin 1024) : ℕ → EReal × EReal × EReal
  | 0 => (⊥, 0, 0)
  | n + 1 => if h : n < 4 then kstep q k v i d ⟨n, h⟩ (krun q k v i d n) else krun q k v i d n

/-- The second kernel's result at (i, d): numerator over sum after the 4 blocks. -/
def kerOut (q k v : SX.Idx → EReal) (i : Fin 4096) (d : Fin 1024) : EReal :=
  Ideal.div (krun q k v i d 4).2.2 (krun q k v i d 4).2.1

/-- The second kernel's result as a whole array. -/
def kerArr (q k v : SX.Idx → EReal) : SX.Idx → EReal := fun j => kerOut q k v (row j) (col j)

end Cert.Attn

end
-- ==== Proof.ValueRun.lean ====
/-
  The idealized kernel's run with its result named.

  @main is two kernel regions in a row.  Every weakly fair execution terminates without a fault, and in the final
  memory the result buffer holds what the second region's write-backs leave of it, while the four argument arrays
  are as launched: the launch over the program's two segments, the last thread state read against the final memory,
  the result buffer kept in the postcondition beside the arguments.
-/
import proofs.«151747_j26431228739710_2_alg».proof.Proof.Gen.KernelIdeal.Frame

set_option maxRecDepth 16384

noncomputable section

namespace Cert.Attn.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting; the result buffer ends at the contents the
    second region leaves (`W2` at the result's reference) and the argument arrays end as launched. -/
theorem run_result : θ_run defs (onTc (τ := τ) (main (F := F))) ⟨m, fun _ => 0, ρ⟩ (fun r => ∀ c : Dev nD,
      r.2.mem ((c.tc : Thread nD τ).loc main_v1) = W2 m ρ c (Proc.devRef .tc main_v1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h c =>
      ⟨h c _ (mem_uc main_v1 (by decide)),
       (h c _ (mem_uc main_arg0 (by decide))).trans (W2_main_arg0 m ρ c),
       (h c _ (mem_uc main_arg1 (by decide))).trans (W2_main_arg1 m ρ c),
       (h c _ (mem_uc main_arg2 (by decide))).trans (W2_main_arg2 m ρ c),
       (h c _ (mem_uc main_arg3 (by decide))).trans (W2_main_arg3 m ρ c)⟩)

/-- The result buffer's final contents are the second region's output array after its last grid point. -/
theorem W2_result (c : Dev nD) : W2 m ρ c (Proc.devRef .tc main_v1) = (dat1 (V1 m ρ) c).arrAt 3 cfg1.N :=
  W2_arr m ρ c 3

/-- The second region finds, in its three input arrays, the first region's three output arrays after its last
    grid point. -/
theorem V1_q (c : Dev nD) : V1 m ρ c (Pipeline.arrRef spec1 0) = (dat0 (V0 m ρ) c).arrAt 4 cfg0.N := W1_arr m ρ c 4
theorem V1_k (c : Dev nD) : V1 m ρ c (Pipeline.arrRef spec1 1) = (dat0 (V0 m ρ) c).arrAt 5 cfg0.N := W1_arr m ρ c 5
theorem V1_v (c : Dev nD) : V1 m ρ c (Pipeline.arrRef spec1 2) = (dat0 (V0 m ρ) c).arrAt 6 cfg0.N := W1_arr m ρ c 6

end Cert.Attn.Run

end
-- ==== Proof.LibPlainDot.lean ====
/-
  A plain matrix product read at an entry, on the extended reals.

  For the dimension numbers of an `M×K` by `K×N` product (`DotDims.plain M K N`: contract the left operand's second
  axis with the right operand's first, no batch axis), the sum over the contraction index of the operands' products at
  output entry `(p, j)` is `∑ k, l (p, k) * r (k, j)`: the contraction index is its one coordinate `k`, the left
  operand is read at row `p`, column `k`, the right at row `k`, column `j`. From it: a vector-unit matrix product into
  the zero accumulator (`matmul_zero_apply`) and the host's `dot_general` (`dotGeneral_apply`) at `(p, j)`. A printed
  program's own record of these dimension numbers is `DotDims.plain` of its literal sizes by `rfl`.
-/
import Idealize.ShloMosaic.Lib.ValueIdx
import Idealize.ShloMosaic.PureOps.Ideal.Laws

noncomputable section

open scoped BigOperators

namespace Cert.Lib.PlainDot

open Idealize.ShloMosaic Idealize.ShloMosaic.ValueIdx

variable {M K N : ℕ} {φ₁ φ₂ : FTy}

/-- Left operand, axis 0: the output's row. -/
theorem lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

/-- Right operand, axis 1: the output's column. -/
theorem rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The left operand's index at output `(p, j)` and contraction coordinate `k` is `(p, k)`. -/
theorem lhsIdx_plain (p : Fin M) (j : Fin N) (k : Fin K) :
    (DotDims.plain M K N).lhsIdx (ix2 p j) ((contrEquiv1 (DotDims.plain M K N) K rfl rfl).symm k) = ix2 p k := by
  have hk := contrEquiv1_symm_val (DotDims.plain M K N) K rfl rfl k
  exact funext fun a => Fin.ext (by
    match a with
    | ⟨0, _⟩ => exact lhs0 _ _
    | ⟨1, _⟩ => exact ((DotDims.plain M K N).lhsIdx_val_of_single rfl _ _).trans hk)

/-- The right operand's index at output `(p, j)` and contraction coordinate `k` is `(k, j)`. -/
theorem rhsIdx_plain (p : Fin M) (j : Fin N) (k : Fin K) :
    (DotDims.plain M K N).rhsIdx (ix2 p j) ((contrEquiv1 (DotDims.plain M K N) K rfl rfl).symm k) = ix2 k j := by
  have hk := contrEquiv1_symm_val (DotDims.plain M K N) K rfl rfl k
  exact funext fun a => Fin.ext (by
    match a with
    | ⟨0, _⟩ => exact ((DotDims.plain M K N).rhsIdx_val_of_single rfl _ _).trans hk
    | ⟨1, _⟩ => exact rhs1 _ _)

/-- The contraction's sum at output `(p, j)` is the sum over the contracted coordinate. -/
theorem sum_plain (l : (⟨2, ![M, K]⟩ : Shape).Idx → EReal) (r : (⟨2, ![K, N]⟩ : Shape).Idx → EReal) (p : Fin M) (j : Fin N) :
    ∑ q : (DotDims.plain M K N).contr.Idx,
        l ((DotDims.plain M K N).lhsIdx (ix2 p j) q) * r ((DotDims.plain M K N).rhsIdx (ix2 p j) q)
      = ∑ k : Fin K, l (ix2 p k) * r (ix2 k j) := by
  rw [← Equiv.sum_comp (contrEquiv1 (DotDims.plain M K N) K rfl rfl).symm]
  refine Finset.sum_congr rfl fun k _ => ?_
  rw [lhsIdx_plain, rhsIdx_plain]

/-- A matrix product on the vector unit into the zero accumulator, at entry `(p, j)`. -/
theorem matmul_zero_apply (prec : Option ContractPrecision) (l : FVec Ideal ⟨2, ![M, K]⟩ φ₁) (r : FVec Ideal ⟨2, ![K, N]⟩ φ₂)
    (p : Fin M) (j : Fin N) :
    FloatOps.matmul (DotDims.plain M K N) prec l r (constant ⟨2, ![M, N]⟩ .f32 0x00000000#32) (ix2 p j)
      = ∑ k : Fin K, l (ix2 p k) * r (ix2 k j) := by
  rw [Ideal.matmul_constant_zero_apply]
  exact sum_plain l r p j

/-- The host's `dot_general` at entry `(p, j)`, whatever its schedule. -/
theorem dotGeneral_apply (prec : Option ContractPrecision) (sched : HostSchedule) (l : FVec Ideal ⟨2, ![M, K]⟩ φ₁)
    (r : FVec Ideal ⟨2, ![K, N]⟩ φ₂) (p : Fin M) (j : Fin N) :
    FloatOps.dotGeneral (DotDims.plain M K N) prec sched l r (ix2 p j) = ∑ k : Fin K, l (ix2 p k) * r (ix2 k j) := by
  rw [Ideal.dotGeneral_apply]
  exact sum_plain l r p j

end Cert.Lib.PlainDot

end
-- ==== Proof.QkvValue.lean ====
/-
  The first kernel's three result arrays as whole-array functions of its inputs, over the extended reals.

  The kernel walks the 4096 rows of x in 8 blocks of 512 rows (block t is rows 512·t … 512·t + 511), each time with
  the three whole 1024×1024 weights, and leaves for its block of rows
      q = (x·wq)·2⁻⁵,   k = x·wk,   v = x·wv,
  each product accumulated from zero; narrowing a value to the shorter format changes nothing on the extended reals.
  Entry (p, j) of a block's product is ∑ e, x (512·t + p, e) · w (e, j): entry (512·t + p, j) of the whole product.
  The 8 blocks of rows tile the 4096 rows (row r is in block r / 512), so each result array ends holding the whole
  product (`arr_q`, `arr_k`, `arr_v`).
-/
import proofs.«151747_j26431228739710_2_alg».proof.Proof.Gen.KernelIdeal.Frame
import proofs.«151747_j26431228739710_2_alg».proof.Proof.Spec
import proofs.«151747_j26431228739710_2_alg».proof.Proof.LibPlainDot
import Idealize.ShloMosaic.Lib.Pipeline.Value
import Idealize.ShloMosaic.Lib.ValueIdx

noncomputable section

namespace Cert.Attn.Qkv

open Idealize.ShloMosaic Idealize.ShloMosaic.TcCoe Idealize.SL.Sem Cert.KernelIdeal Cert.KernelIdeal.Gen
open Idealize.ShloMosaic.ValueIdx
open Idealize.ShloMosaic.Pipeline (Dat)

/-! ## One block's products, entry by entry -/

/-- Entry (p, j) of the scaled product a block of rows leaves: the sum over the contracted index, times 2⁻⁵. -/
theorem scaled_block_apply (x0 : Vec Ideal S512x1024 .f32) (w : Vec Ideal S1024x1024 .f32) (p : Fin 512) (j : Fin 1024) :
    (k0_pay2 x0 w : FVec Ideal S512x1024 .bf16) (ix2 p j) = (∑ e : Fin 1024, x0 (ix2 p e) * w (ix2 e j)) * Cert.Attn.c32 := by
  unfold k0_pay2 k0_pay1
  show (FloatOps.matmul (DotDims.plain 512 1024 1024) none (truncf (F := Ideal) .bf16 x0 bitsLt_bf16_f32) (truncf (F := Ideal) .bf16 w bitsLt_bf16_f32)
      (constant ⟨2, ![512, 1024]⟩ .f32 0x00000000#32)) (ix2 p j) * Ideal.ofBits .f32 0x3D000000#32 = _
  rw [Cert.Lib.PlainDot.matmul_zero_apply]
  rfl

/-- Entry (p, j) of a plain product a block of rows leaves (the key product). -/
theorem key_block_apply (x0 : Vec Ideal S512x1024 .f32) (w : Vec Ideal S1024x1024 .f32) (p : Fin 512) (j : Fin 1024) :
    (k0_pay3 x0 w : FVec Ideal S512x1024 .bf16) (ix2 p j) = ∑ e : Fin 1024, x0 (ix2 p e) * w (ix2 e j) := by
  unfold k0_pay3 k0_pay1
  show (FloatOps.matmul (DotDims.plain 512 1024 1024) none (truncf (F := Ideal) .bf16 x0 bitsLt_bf16_f32) (truncf (F := Ideal) .bf16 w bitsLt_bf16_f32)
      (constant ⟨2, ![512, 1024]⟩ .f32 0x00000000#32)) (ix2 p j) = _
  rw [Cert.Lib.PlainDot.matmul_zero_apply]
  rfl

/-- Entry (p, j) of a plain product a block of rows leaves (the value product). -/
theorem value_block_apply (x0 : Vec Ideal S512x1024 .f32) (w : Vec Ideal S1024x1024 .f32) (p : Fin 512) (j : Fin 1024) :
    (k0_pay4 x0 w : FVec Ideal S512x1024 .bf16) (ix2 p j) = ∑ e : Fin 1024, x0 (ix2 p e) * w (ix2 e j) := by
  unfold k0_pay4 k0_pay1
  show (FloatOps.matmul (DotDims.plain 512 1024 1024) none (truncf (F := Ideal) .bf16 x0 bitsLt_bf16_f32) (truncf (F := Ideal) .bf16 w bitsLt_bf16_f32)
      (constant ⟨2, ![512, 1024]⟩ .f32 0x00000000#32)) (ix2 p j) = _
  rw [Cert.Lib.PlainDot.matmul_zero_apply]
  rfl

/-! ## The blocks the eight points read -/

variable (V : (c : Dev nD) → (b : Ref sig .tc) → Buf (Elt Ideal) ((c : Thread nD τ).loc b))

theorem zero_off : (![0, 0] : Fin 2 → Nat) = fun _ => 0 := funext fun a => by fin_cases a <;> rfl

/-- The printed index maps over the 8 points: the block of x and the three result blocks of point t are block row t,
    block column 0; a weight's block is always block (0, 0). -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-- The block of x at point t is rows 512·t … 512·t + 511 of x. -/
theorem x_block_apply (c : Dev nD) (t : Fin cfg0.N) (y : S512x1024.Idx) (k : S4096x1024.Idx)
    (hk0 : (k 0).val = 512 * t.val + (y 0).val) (hk1 : (k 1).val = (y 1).val) :
    (iblk0 (F := Ideal) V c 0 t : Vec Ideal S512x1024 .f32) y = (V c main_arg0 : S4096x1024.Idx → EReal) k := by
  obtain ⟨e0, e1, -⟩ := block_indices t
  unfold iblk0
  rw [View.read_apply]
  show V c main_arg0 _ = V c main_arg0 _
  congr 1
  funext a
  apply Fin.ext
  match a with
  | ⟨0, _⟩ => show win0_0.index t 0 * 512 + 1 * (y 0).val = (k 0).val; rw [e0, hk0]; omega
  | ⟨1, _⟩ => show win0_0.index t 1 * 1024 + 1 * (y 1).val = (k 1).val; rw [e1, hk1]; omega

/-- The block of the first weight at any point is the whole weight. -/
theorem wq_block_apply (c : Dev nD) (t : Fin cfg0.N) (y : S1024x1024.Idx) :
    (iblk0 (F := Ideal) V c 1 t : Vec Ideal S1024x1024 .f32) y = (V c main_arg1 : S1024x1024.Idx → EReal) y := by
  obtain ⟨-, -, e0, e1, -⟩ := block_indices t
  unfold iblk0
  rw [View.read_apply]
  show V c main_arg1 _ = V c main_arg1 _
  congr 1
  funext a
  apply Fin.ext
  match a with
  | ⟨0, _⟩ => show win0_1.index t 0 * 1024 + 1 * (y 0).val = (y 0).val; rw [e0]; omega
  | ⟨1, _⟩ => show win0_1.index t 1 * 1024 + 1 * (y 1).val = (y 1).val; rw [e1]; omega

/-- The block of the second weight at any point is the whole weight. -/
theorem wk_block_apply (c : Dev nD) (t : Fin cfg0.N) (y : S1024x1024.Idx) :
    (iblk0 (F := Ideal) V c 2 t : Vec Ideal S1024x1024 .f32) y = (V c main_arg2 : S1024x1024.Idx → EReal) y := by
  obtain ⟨-, -, -, -, e0, e1, -⟩ := block_indices t
  unfold iblk0
  rw [View.read_apply]
  show V c main_arg2 _ = V c main_arg2 _
  congr 1
  funext a
  apply Fin.ext
  match a with
  | ⟨0, _⟩ => show win0_2.index t 0 * 1024 + 1 * (y 0).val = (y 0).val; rw [e0]; omega
  | ⟨1, _⟩ => show win0_2.index t 1 * 1024 + 1 * (y 1).val = (y 1).val; rw [e1]; omega

/-- The block of the third weight at any point is the whole weight. -/
theorem wv_block_apply (c : Dev nD) (t : Fin cfg0.N) (y : S1024x1024.Idx) :
    (iblk0 (F := Ideal) V c 3 t : Vec Ideal S1024x1024 .f32) y = (V c main_arg3 : S1024x1024.Idx → EReal) y := by
  obtain ⟨-, -, -, -, -, -, e0, e1, -⟩ := block_indices t
  unfold iblk0
  rw [View.read_apply]
  show V c main_arg3 _ = V c main_arg3 _
  congr 1
  funext a
  apply Fin.ext
  match a with
  | ⟨0, _⟩ => show win0_3.index t 0 * 1024 + 1 * (y 0).val = (y 0).val; rw [e0]; omega
  | ⟨1, _⟩ => show win0_3.index t 1 * 1024 + 1 * (y 1).val = (y 1).val; rw [e1]; omega

/-! ## What a point writes back, and the whole arrays -/

/-- For a block product `pay` whose entry (p, j) is `f` of the contraction sum: its entry y at point t, from the
    block of x there and a weight's block that is the whole weight `wi`, is `f` of entry i of the whole product
    x·wi, when i is row 512·t + y₀ and column y₁. -/
theorem block_entry (f : EReal → EReal)
    (pay : Vec Ideal S512x1024 .f32 → Vec Ideal S1024x1024 .f32 → FVec Ideal S512x1024 .bf16)
    (hpay : ∀ (x0 : Vec Ideal S512x1024 .f32) (w : Vec Ideal S1024x1024 .f32) (p : Fin 512) (j : Fin 1024),
      pay x0 w (ix2 p j) = f (∑ e : Fin 1024, x0 (ix2 p e) * w (ix2 e j)))
    (c : Dev nD) (t : Fin cfg0.N) (wi : SW.Idx → EReal) (wblk : Vec Ideal S1024x1024 .f32) (hw : ∀ y, wblk y = wi y)
    (y : S512x1024.Idx) (i : SX.Idx) (h0 : (i 0).val = 512 * t.val + (y 0).val) (h1 : (i 1).val = (y 1).val) :
    pay (iblk0 (F := Ideal) V c 0 t) wblk y = f (proj (V c main_arg0) wi (row i) (col i)) := by
  have hy : y = ix2 (n0 := 512) (n1 := 1024) ⟨(y 0).val, idx2_lt0 y⟩ (col i) :=
    funext fun a => Fin.ext (by match a with | ⟨0, _⟩ => rfl | ⟨1, _⟩ => exact h1.symm)
  refine (congrArg (pay (iblk0 (F := Ideal) V c 0 t) wblk) hy).trans ?_
  rw [hpay]
  unfold proj
  refine congrArg f (Finset.sum_congr rfl fun e _ => ?_)
  rw [hw]
  exact congrArg (· * wi (ix2 e (col i)))
    (x_block_apply V c t (ix2 (n0 := 512) (n1 := 1024) ⟨(y 0).val, idx2_lt0 y⟩ e) (ix2 (row i) e) h0 rfl)

/-- What point t writes back to the q array is block t of the scaled product (x·wq)·2⁻⁵. -/
theorem flushed_q (c : Dev nD) (t : Fin cfg0.N) :
    (dat0 (F := Ideal) V c).flushed 4 t
      = ((cfg0.win 4).blk t).view.read (Elt Ideal) (Cert.Attn.qArr (V c main_arg0) (V c main_arg1)) := by
  show (cfg0.win 4).cut (grid0.coords t) ((dat0 V c).after 4 t) = _
  rw [after0_4]
  unfold out0_4
  rw [View.canon_unit_zero zero_off]
  simp only [View.ld_unit_zero (S := S512x1024) zero_off, View.ld_unit_zero (S := S1024x1024) zero_off]
  obtain ⟨-, -, -, -, -, -, -, -, e0, e1, -⟩ := block_indices t
  funext j
  show k0_pay2 (iblk0 V c 0 t) (iblk0 V c 1 t) ((cfg0.win 4).xinj (grid0.coords t) j)
      = Cert.Attn.qArr (V c main_arg0) (V c main_arg1) (((cfg0.win 4).blk t).view.emb j)
  refine block_entry V (fun s => s * c32) k0_pay2 scaled_block_apply c t (V c main_arg1) (iblk0 V c 1 t) (wq_block_apply V c t) _
    (((cfg0.win 4).blk t).view.emb j) ?_ ?_
  · show win0_4.index t 0 * 512 + 1 * (j 0).val = 512 * t.val + (j 0).val
    rw [e0]; omega
  · show win0_4.index t 1 * 1024 + 1 * (j 1).val = (j 1).val
    rw [e1]; omega

/-- An index of the q array is in point t's block iff each coordinate is in the block's range on its axis. -/
theorem mem_block_q (t : Fin cfg0.N) (i : S4096x1024.Idx) :
    i ∈ ((cfg0.win 4).blk t).view.set ↔ ∀ a : Fin 2, win0_4.index t a * S512x1024.size a ≤ (i a).val
      ∧ (i a).val < win0_4.index t a * S512x1024.size a + S512x1024.size a := by
  show i ∈ ((View.whole main_v0_0).slice (win0_4.rect t)).set ↔ _
  rw [View.set_slice_whole, Rect.mem_set_unit]
  exact Iff.rfl

/-- Every index of the q array is in the block of the point its row names: row r is in block r / 512. -/
theorem cover_q (i : S4096x1024.Idx) :
    ∃ t : Fin cfg0.N, (cfg0.win 4).flush t = true ∧ i ∈ ((cfg0.win 4).blk t).view.set := by
  have hi0 : (i 0).val < 4096 := (i 0).isLt
  have hi1 : (i 1).val < 1024 := (i 1).isLt
  have hN : cfg0.N = 8 := N_0
  obtain ⟨t, ht⟩ : ∃ t : Fin cfg0.N, t.val = (i 0).val / 512 := ⟨⟨(i 0).val / 512, by rw [hN]; omega⟩, rfl⟩
  obtain ⟨-, -, -, -, -, -, -, -, e0, e1, -⟩ := block_indices t
  refine ⟨t, flush0_4 t, ?_⟩
  rw [mem_block_q]
  intro a
  match a with
  | ⟨0, _⟩ =>
    show win0_4.index t 0 * 512 ≤ (i 0).val ∧ (i 0).val < win0_4.index t 0 * 512 + 512
    rw [e0, ht]; omega
  | ⟨1, _⟩ =>
    show win0_4.index t 1 * 1024 ≤ (i 1).val ∧ (i 1).val < win0_4.index t 1 * 1024 + 1024
    rw [e1]; omega

/-- The q array after the eight points: the scaled product (x·wq)·2⁻⁵. -/
theorem arr_q (c : Dev nD) :
    (dat0 (F := Ideal) V c).arrAt 4 cfg0.N = Cert.Attn.qArr (V c main_arg0) (V c main_arg1) :=
  (dat0 (F := Ideal) V c).arrAt_eq_of_cover 4 (Cert.Attn.qArr (V c main_arg0) (V c main_arg1))
    (fun t _ => flushed_q V c t) cover_q

/-- What point t writes back to the k array is block t of the product x·wk. -/
theorem flushed_k (c : Dev nD) (t : Fin cfg0.N) :
    (dat0 (F := Ideal) V c).flushed 5 t
      = ((cfg0.win 5).blk t).view.read (Elt Ideal) (Cert.Attn.plainArr (V c main_arg0) (V c main_arg2)) := by
  show (cfg0.win 5).cut (grid0.coords t) ((dat0 V c).after 5 t) = _
  rw [after0_5]
  unfold out0_5
  rw [View.canon_unit_zero zero_off]
  simp only [View.ld_unit_zero (S := S512x1024) zero_off, View.ld_unit_zero (S := S1024x1024) zero_off]
  obtain ⟨-, -, -, -, -, -, -, -, -, -, e0, e1, -⟩ := block_indices t
  funext j
  show k0_pay3 (iblk0 V c 0 t) (iblk0 V c 2 t) ((cfg0.win 5).xinj (grid0.coords t) j)
      = Cert.Attn.plainArr (V c main_arg0) (V c main_arg2) (((cfg0.win 5).blk t).view.emb j)
  refine block_entry V (fun s => s) k0_pay3 key_block_apply c t (V c main_arg2) (iblk0 V c 2 t) (wk_block_apply V c t) _
    (((cfg0.win 5).blk t).view.emb j) ?_ ?_
  · show win0_5.index t 0 * 512 + 1 * (j 0).val = 512 * t.val + (j 0).val
    rw [e0]; omega
  · show win0_5.index t 1 * 1024 + 1 * (j 1).val = (j 1).val
    rw [e1]; omega

/-- An index of the k array is in point t's block iff each coordinate is in the block's range on its axis. -/
theorem mem_block_k (t : Fin cfg0.N) (i : S4096x1024.Idx) :
    i ∈ ((cfg0.win 5).blk t).view.set ↔ ∀ a : Fin 2, win0_5.index t a * S512x1024.size a ≤ (i a).val
      ∧ (i a).val < win0_5.index t a * S512x1024.size a + S512x1024.size a := by
  show i ∈ ((View.whole main_v0_1).slice (win0_5.rect t)).set ↔ _
  rw [View.set_slice_whole, Rect.mem_set_unit]
  exact Iff.rfl

/-- Every index of the k array is in the block of the point its row names: row r is in block r / 512. -/
theorem cover_k (i : S4096x1024.Idx) :
    ∃ t : Fin cfg0.N, (cfg0.win 5).flush t = true ∧ i ∈ ((cfg0.win 5).blk t).view.set := by
  have hi0 : (i 0).val < 4096 := (i 0).isLt
  have hi1 : (i 1).val < 1024 := (i 1).isLt
  have hN : cfg0.N = 8 := N_0
  obtain ⟨t, ht⟩ : ∃ t : Fin cfg0.N, t.val = (i 0).val / 512 := ⟨⟨(i 0).val / 512, by rw [hN]; omega⟩, rfl⟩
  obtain ⟨-, -, -, -, -, -, -, -, -, -, e0, e1, -⟩ := block_indices t
  refine ⟨t, flush0_5 t, ?_⟩
  rw [mem_block_k]
  intro a
  match a with
  | ⟨0, _⟩ =>
    show win0_5.index t 0 * 512 ≤ (i 0).val ∧ (i 0).val < win0_5.index t 0 * 512 + 512
    rw [e0, ht]; omega
  | ⟨1, _⟩ =>
    show win0_5.index t 1 * 1024 ≤ (i 1).val ∧ (i 1).val < win0_5.index t 1 * 1024 + 1024
    rw [e1]; omega

/-- The k array after the eight points: the product x·wk. -/
theorem arr_k (c : Dev nD) :
    (dat0 (F := Ideal) V c).arrAt 5 cfg0.N = Cert.Attn.plainArr (V c main_arg0) (V c main_arg2) :=
  (dat0 (F := Ideal) V c).arrAt_eq_of_cover 5 (Cert.Attn.plainArr (V c main_arg0) (V c main_arg2))
    (fun t _ => flushed_k V c t) cover_k

/-- What point t writes back to the v array is block t of the product x·wv. -/
theorem flushed_v (c : Dev nD) (t : Fin cfg0.N) :
    (dat0 (F := Ideal) V c).flushed 6 t
      = ((cfg0.win 6).blk t).view.read (Elt Ideal) (Cert.Attn.plainArr (V c main_arg0) (V c main_arg3)) := by
  show (cfg0.win 6).cut (grid0.coords t) ((dat0 V c).after 6 t) = _
  rw [after0_6]
  unfold out0_6
  rw [View.canon_unit_zero zero_off]
  simp only [View.ld_unit_zero (S := S512x1024) zero_off, View.ld_unit_zero (S := S1024x1024) zero_off]
  obtain ⟨-, -, -, -, -, -, -, -, -, -, -, -, e0, e1⟩ := block_indices t
  funext j
  show k0_pay4 (iblk0 V c 0 t) (iblk0 V c 3 t) ((cfg0.win 6).xinj (grid0.coords t) j)
      = Cert.Attn.plainArr (V c main_arg0) (V c main_arg3) (((cfg0.win 6).blk t).view.emb j)
  refine block_entry V (fun s => s) k0_pay4 value_block_apply c t (V c main_arg3) (iblk0 V c 3 t) (wv_block_apply V c t) _
    (((cfg0.win 6).blk t).view.emb j) ?_ ?_
  · show win0_6.index t 0 * 512 + 1 * (j 0).val = 512 * t.val + (j 0).val
    rw [e0]; omega
  · show win0_6.index t 1 * 1024 + 1 * (j 1).val = (j 1).val
    rw [e1]; omega

/-- An index of the v array is in point t's block iff each coordinate is in the block's range on its axis. -/
theorem mem_block_v (t : Fin cfg0.N) (i : S4096x1024.Idx) :
    i ∈ ((cfg0.win 6).blk t).view.set ↔ ∀ a : Fin 2, win0_6.index t a * S512x1024.size a ≤ (i a).val
      ∧ (i a).val < win0_6.index t a * S512x1024.size a + S512x1024.size a := by
  show i ∈ ((View.whole main_v0_2).slice (win0_6.rect t)).set ↔ _
  rw [View.set_slice_whole, Rect.mem_set_unit]
  exact Iff.rfl

/-- Every index of the v array is in the block of the point its row names: row r is in block r / 512. -/
theorem cover_v (i : S4096x1024.Idx) :
    ∃ t : Fin cfg0.N, (cfg0.win 6).flush t = true ∧ i ∈ ((cfg0.win 6).blk t).view.set := by
  have hi0 : (i 0).val < 4096 := (i 0).isLt
  have hi1 : (i 1).val < 1024 := (i 1).isLt
  have hN : cfg0.N = 8 := N_0
  obtain ⟨t, ht⟩ : ∃ t : Fin cfg0.N, t.val = (i 0).val / 512 := ⟨⟨(i 0).val / 512, by rw [hN]; omega⟩, rfl⟩
  obtain ⟨-, -, -, -, -, -, -, -, -, -, -, -, e0, e1⟩ := block_indices t
  refine ⟨t, flush0_6 t, ?_⟩
  rw [mem_block_v]
  intro a
  match a with
  | ⟨0, _⟩ =>
    show win0_6.index t 0 * 512 ≤ (i 0).val ∧ (i 0).val < win0_6.index t 0 * 512 + 512
    rw [e0, ht]; omega
  | ⟨1, _⟩ =>
    show win0_6.index t 1 * 1024 ≤ (i 1).val ∧ (i 1).val < win0_6.index t 1 * 1024 + 1024
    rw [e1]; omega

/-- The v array after the eight points: the product x·wv. -/
theorem arr_v (c : Dev nD) :
    (dat0 (F := Ideal) V c).arrAt 6 cfg0.N = Cert.Attn.plainArr (V c main_arg0) (V c main_arg3) :=
  (dat0 (F := Ideal) V c).arrAt_eq_of_cover 6 (Cert.Attn.plainArr (V c main_arg0) (V c main_arg3))
    (fun t _ => flushed_v V c t) cover_v

end Cert.Attn.Qkv

end
-- ==== Proof.AttnState.lean ====
/-
  The second kernel's carried state as a pure recurrence.

  For a block q of 512 query rows and the 4 key blocks Ks k and value blocks Vs k (1024 rows each), the three scratch
  arrays — the running maximum column, the running sum column, the running numerator — start at the three initial
  fills and, at block k, become the three loop-body payloads of (q, Ks k, Vs k) and the previous state.
-/
import proofs.«151747_j26431228739710_2_alg».proof.Proof.Gen.KernelIdeal.Skeleton

noncomputable section

namespace Cert.Attn.Body

open Idealize.ShloMosaic Cert.KernelIdeal Cert.KernelIdeal.Gen

variable {F : FTy → Type} [FloatOps F]

/-- The state (maximum, sum, numerator) after the first n blocks. -/
def scrOf (q : FVec F S512x1024 .bf16) (Ks Vs : Fin k1_t1_loop.trips → Vec F S1024x1024 .bf16) :
    ℕ → Vec F S512x1 .f32 × Vec F S512x1 .f32 × Vec F S512x1024 .f32
  | 0 => (k1_pay1, k1_pay2, k1_pay3)
  | n + 1 =>
    if h : n < k1_t1_loop.trips then
      (k1_pay5 (k1_pay8 q (Ks ⟨n, h⟩) (scrOf q Ks Vs n).1),
       k1_pay11 q (Ks ⟨n, h⟩) (scrOf q Ks Vs n).1 (scrOf q Ks Vs n).2.1,
       k1_pay12 q (Ks ⟨n, h⟩) (Vs ⟨n, h⟩) (scrOf q Ks Vs n).1 (scrOf q Ks Vs n).2.2)
    else scrOf q Ks Vs n

theorem scrOf_zero (q : FVec F S512x1024 .bf16) (Ks Vs : Fin k1_t1_loop.trips → Vec F S1024x1024 .bf16) :
    scrOf q Ks Vs 0 = (k1_pay1, k1_pay2, k1_pay3) := rfl

theorem scrOf_succ (q : FVec F S512x1024 .bf16) (Ks Vs : Fin k1_t1_loop.trips → Vec F S1024x1024 .bf16) {n : ℕ}
    (h : n < k1_t1_loop.trips) :
    scrOf q Ks Vs (n + 1)
      = (k1_pay5 (k1_pay8 q (Ks ⟨n, h⟩) (scrOf q Ks Vs n).1),
         k1_pay11 q (Ks ⟨n, h⟩) (scrOf q Ks Vs n).1 (scrOf q Ks Vs n).2.1,
         k1_pay12 q (Ks ⟨n, h⟩) (Vs ⟨n, h⟩) (scrOf q Ks Vs n).1 (scrOf q Ks Vs n).2.2) := by
  rw [scrOf]; exact dif_pos h

/-- The loop makes 4 trips. -/
theorem trips_eq : k1_t1_loop.trips = 4 := by decide +kernel

end Cert.Attn.Body

end
-- ==== Proof.AttnBody.lean ====
/-
  What the second kernel's body leaves in its output block, read off its run.

  The body fills three scratch arrays (maximum column -∞, sum column 0, numerator 0), walks the 4 key/value blocks —
  each trip loads the three scratch arrays whole and stores each of them whole again — and finally stores
  numerator / sum into the output block.  A whole-array load after several stores, the last of them whole, reads that
  last store's payload; so the scratch arrays after n trips are the pure recurrence `scrOf` of the query block and
  the key and value blocks the trips load, and the output block is the final quotient payload of its last state.
-/
import proofs.«151747_j26431228739710_2_alg».proof.Proof.Gen.KernelIdeal.Frame
import proofs.«151747_j26431228739710_2_alg».proof.Proof.AttnState
import Idealize.ShloMosaic.Lib.Pipeline.Value

set_option maxRecDepth 16384
set_option maxHeartbeats 1000000

noncomputable section

namespace Cert.Attn.Body

open Idealize.ShloMosaic Idealize.ShloMosaic.TcCoe Idealize.ShloMosaic.Tactic
open Idealize.SL Idealize.SL.Sem
open Cert.KernelIdeal Cert.KernelIdeal.Gen

/-! ## A whole-array load of stores over an earlier fill -/

section Whole

variable {Val : EltTy → Type} {S : Shape} {e : EltTy}

/-- A load through the whole-shape rectangle of the stores `L` made over the stores `L0` (over anything) reads what
    the two lists together leave. -/
theorem readAt_whole_writes [∀ e, Nonempty (Val e)] {sig : RefSig} {κ : Kind} {sp : Space} (v : View sig κ sp S e)
    {off : Fin S.rank → Nat} (h : off = fun _ => 0) (inb : ∀ a, off a + S.size a ≤ S.size a)
    (L L0 : List (View.Piece Val S e)) :
    v.readAt Val (Rect.unit off S.size inb).toLoadRect (v.writes Val (v.writes Val v.junk L0) L) = View.canon (L ++ L0) := by
  rw [← View.writes_append, View.readAt_writes_junk_eq_canon]
  exact View.ld_unit_zero h inb (View.canon (L ++ L0))

end Whole

variable {F : FTy → Type} [FloatOps F]

theorem zero2 : (![0, 0] : Fin 2 → ℕ) = fun _ => 0 := by
  funext a; fin_cases a <;> rfl

/-! ## One trip's stores -/

/-- The three stores of trip `k`, from the contents `f5 f6 f7` it finds in the scratch arrays: each scratch array is
    stored whole, at the loop body's payloads of the query block, the trip's key and value blocks, and the
    scratch arrays loaded whole. -/
theorem tripL_eq (𝒱 : Variants) (c : Dev nD) (bd : Option 𝒱.V) (i : grid1.Coords) (arg1 : Memref sig .tc .vmem S512x1024 .bf16) (harg1 : arg1.IsWhole) (arg2 : Memref sig .tc .vmem S4096x1024 .bf16) (harg2 : arg2.IsWhole) (arg3 : Memref sig .tc .vmem S4096x1024 .bf16) (harg3 : arg3.IsWhole) (arg4 : Memref sig .tc .vmem S512x1024 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1024 .f32) (harg7 : arg7.IsWhole)
    (v12 : Vec F S512x1024 .bf16) (X2 : BufTy.Contents (Elt F) arg2.view.ty) (X3 : BufTy.Contents (Elt F) arg3.view.ty)
    (k : Fin k1_t1_loop.trips)
    (f5 : BufTy.Contents (Elt F) arg5.view.ty) (f6 : BufTy.Contents (Elt F) arg6.view.ty) (f7 : BufTy.Contents (Elt F) arg7.view.ty) :
    tripL_k1_t1 (F := F) 𝒱 c bd i arg1 harg1 arg2 harg2 arg3 harg3 arg4 harg4 arg5 harg5 arg6 harg6 arg7 harg7 v12 X2 X3 k f5 f6 f7
      = ([(⟨(Rect.unit (s := S512x1) ![0, 0] S512x1.size inb_S512x1_S512x1_0_0), k1_pay5 (k1_pay8 (k1_pay4 v12) (View.readAt (Elt F) arg2.view (Rect.unit (s := S4096x1024) (k1_off1 k) S1024x1024.size (k1_off1_inb k)).toLoadRect X2) (View.readAt (Elt F) arg5.view (Rect.unit (s := S512x1) ![0, 0] S512x1.size inb_S512x1_S512x1_0_0).toLoadRect f5))⟩ : View.Piece (Elt F) S512x1 .f32)],
         [(⟨(Rect.unit (s := S512x1) ![0, 0] S512x1.size inb_S512x1_S512x1_0_0), k1_pay11 (k1_pay4 v12) (View.readAt (Elt F) arg2.view (Rect.unit (s := S4096x1024) (k1_off1 k) S1024x1024.size (k1_off1_inb k)).toLoadRect X2) (View.readAt (Elt F) arg5.view (Rect.unit (s := S512x1) ![0, 0] S512x1.size inb_S512x1_S512x1_0_0).toLoadRect f5) (View.readAt (Elt F) arg6.view (Rect.unit (s := S512x1) ![0, 0] S512x1.size inb_S512x1_S512x1_0_0).toLoadRect f6)⟩ : View.Piece (Elt F) S512x1 .f32)],
         [(⟨(Rect.unit (s := S512x1024) ![0, 0] S512x1024.size inb_S512x1024_S512x1024_0_0), k1_pay12 (k1_pay4 v12) (View.readAt (Elt F) arg2.view (Rect.unit (s := S4096x1024) (k1_off1 k) S1024x1024.size (k1_off1_inb k)).toLoadRect X2) (View.readAt (Elt F) arg3.view (Rect.unit (s := S4096x1024) (k1_off1 k) S1024x1024.size (k1_off1_inb k)).toLoadRect X3) (View.readAt (Elt F) arg5.view (Rect.unit (s := S512x1) ![0, 0] S512x1.size inb_S512x1_S512x1_0_0).toLoadRect f5) (View.readAt (Elt F) arg7.view (Rect.unit (s := S512x1024) ![0, 0] S512x1024.size inb_S512x1024_S512x1024_0_0).toLoadRect f7)⟩ : View.Piece (Elt F) S512x1024 .f32)]) := by
  unfold tripL_k1_t1
  unfold trip_k1_t1
  dsimp only
  sl_unfold_run_names
  rfl

/-! ## The scratch arrays after n trips -/

/-- After the first n trips, what the stores so far (over the three initial fills) leave in the three scratch arrays is
    the pure recurrence's state. -/
theorem canon_pb (𝒱 : Variants) (c : Dev nD) (bd : Option 𝒱.V) (i : grid1.Coords) (arg1 : Memref sig .tc .vmem S512x1024 .bf16) (harg1 : arg1.IsWhole) (arg2 : Memref sig .tc .vmem S4096x1024 .bf16) (harg2 : arg2.IsWhole) (arg3 : Memref sig .tc .vmem S4096x1024 .bf16) (harg3 : arg3.IsWhole) (arg4 : Memref sig .tc .vmem S512x1024 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1024 .f32) (harg7 : arg7.IsWhole)
    (v12 : Vec F S512x1024 .bf16) (X2 : BufTy.Contents (Elt F) arg2.view.ty) (X3 : BufTy.Contents (Elt F) arg3.view.ty) :
    ∀ n, n ≤ k1_t1_loop.trips →
      View.canon ((pb_k1_t1 (F := F) 𝒱 c bd i arg1 harg1 arg2 harg2 arg3 harg3 arg4 harg4 arg5 harg5 arg6 harg6 arg7 harg7 v12 X2 X3 (arg5.view.writes (Elt F) arg5.view.junk [(⟨(Rect.unit (s := S512x1) ![0, 0] S512x1.size inb_S512x1_S512x1_0_0), k1_pay1⟩ : View.Piece (Elt F) S512x1 .f32)]) (arg6.view.writes (Elt F) arg6.view.junk [(⟨(Rect.unit (s := S512x1) ![0, 0] S512x1.size inb_S512x1_S512x1_0_0), k1_pay2⟩ : View.Piece (Elt F) S512x1 .f32)]) (arg7.view.writes (Elt F) arg7.view.junk [(⟨(Rect.unit (s := S512x1024) ![0, 0] S512x1024.size inb_S512x1024_S512x1024_0_0), k1_pay3⟩ : View.Piece (Elt F) S512x1024 .f32)]) n).1 ++ [(⟨(Rect.unit (s := S512x1) ![0, 0] S512x1.size inb_S512x1_S512x1_0_0), k1_pay1⟩ : View.Piece (Elt F) S512x1 .f32)]) = (scrOf (k1_pay4 v12) (fun k => (View.readAt (Elt F) arg2.view (Rect.unit (s := S4096x1024) (k1_off1 k) S1024x1024.size (k1_off1_inb k)).toLoadRect X2)) (fun k => (View.readAt (Elt F) arg3.view (Rect.unit (s := S4096x1024) (k1_off1 k) S1024x1024.size (k1_off1_inb k)).toLoadRect X3)) n).1
      ∧ View.canon ((pb_k1_t1 (F := F) 𝒱 c bd i arg1 harg1 arg2 harg2 arg3 harg3 arg4 harg4 arg5 harg5 arg6 harg6 arg7 harg7 v12 X2 X3 (arg5.view.writes (Elt F) arg5.view.junk [(⟨(Rect.unit (s := S512x1) ![0, 0] S512x1.size inb_S512x1_S512x1_0_0), k1_pay1⟩ : View.Piece (Elt F) S512x1 .f32)]) (arg6.view.writes (Elt F) arg6.view.junk [(⟨(Rect.unit (s := S512x1) ![0, 0] S512x1.size inb_S512x1_S512x1_0_0), k1_pay2⟩ : View.Piece (Elt F) S512x1 .f32)]) (arg7.view.writes (Elt F) arg7.view.junk [(⟨(Rect.unit (s := S512x1024) ![0, 0] S512x1024.size inb_S512x1024_S512x1024_0_0), k1_pay3⟩ : View.Piece (Elt F) S512x1024 .f32)]) n).2.1 ++ [(⟨(Rect.unit (s := S512x1) ![0, 0] S512x1.size inb_S512x1_S512x1_0_0), k1_pay2⟩ : View.Piece (Elt F) S512x1 .f32)]) = (scrOf (k1_pay4 v12) (fun k => (View.readAt (Elt F) arg2.view (Rect.unit (s := S4096x1024) (k1_off1 k) S1024x1024.size (k1_off1_inb k)).toLoadRect X2)) (fun k => (View.readAt (Elt F) arg3.view (Rect.unit (s := S4096x1024) (k1_off1 k) S1024x1024.size (k1_off1_inb k)).toLoadRect X3)) n).2.1
      ∧ View.canon ((pb_k1_t1 (F := F) 𝒱 c bd i arg1 harg1 arg2 harg2 arg3 harg3 arg4 harg4 arg5 harg5 arg6 harg6 arg7 harg7 v12 X2 X3 (arg5.view.writes (Elt F) arg5.view.junk [(⟨(Rect.unit (s := S512x1) ![0, 0] S512x1.size inb_S512x1_S512x1_0_0), k1_pay1⟩ : View.Piece (Elt F) S512x1 .f32)]) (arg6.view.writes (Elt F) arg6.view.junk [(⟨(Rect.unit (s := S512x1) ![0, 0] S512x1.size inb_S512x1_S512x1_0_0), k1_pay2⟩ : View.Piece (Elt F) S512x1 .f32)]) (arg7.view.writes (Elt F) arg7.view.junk [(⟨(Rect.unit (s := S512x1024) ![0, 0] S512x1024.size inb_S512x1024_S512x1024_0_0), k1_pay3⟩ : View.Piece (Elt F) S512x1024 .f32)]) n).2.2 ++ [(⟨(Rect.unit (s := S512x1024) ![0, 0] S512x1024.size inb_S512x1024_S512x1024_0_0), k1_pay3⟩ : View.Piece (Elt F) S512x1024 .f32)]) = (scrOf (k1_pay4 v12) (fun k => (View.readAt (Elt F) arg2.view (Rect.unit (s := S4096x1024) (k1_off1 k) S1024x1024.size (k1_off1_inb k)).toLoadRect X2)) (fun k => (View.readAt (Elt F) arg3.view (Rect.unit (s := S4096x1024) (k1_off1 k) S1024x1024.size (k1_off1_inb k)).toLoadRect X3)) n).2.2 := by
  intro n
  induction n with
  | zero =>
    intro _
    refine ⟨?_, ?_, ?_⟩
    · exact View.canon_unit_zero zero2 _ _
    · exact View.canon_unit_zero zero2 _ _
    · exact View.canon_unit_zero zero2 _ _
  | succ n ih =>
    intro hn
    have hlt : n < k1_t1_loop.trips := hn
    obtain ⟨h1, h2, h3⟩ := ih hlt.le
    have hs := pb_k1_t1_succ (F := F) 𝒱 c bd i arg1 harg1 arg2 harg2 arg3 harg3 arg4 harg4 arg5 harg5 arg6 harg6 arg7 harg7 v12 X2 X3 (arg5.view.writes (Elt F) arg5.view.junk [(⟨(Rect.unit (s := S512x1) ![0, 0] S512x1.size inb_S512x1_S512x1_0_0), k1_pay1⟩ : View.Piece (Elt F) S512x1 .f32)]) (arg6.view.writes (Elt F) arg6.view.junk [(⟨(Rect.unit (s := S512x1) ![0, 0] S512x1.size inb_S512x1_S512x1_0_0), k1_pay2⟩ : View.Piece (Elt F) S512x1 .f32)]) (arg7.view.writes (Elt F) arg7.view.junk [(⟨(Rect.unit (s := S512x1024) ![0, 0] S512x1024.size inb_S512x1024_S512x1024_0_0), k1_pay3⟩ : View.Piece (Elt F) S512x1024 .f32)]) ⟨n, hlt⟩
    rw [show (pb_k1_t1 (F := F) 𝒱 c bd i arg1 harg1 arg2 harg2 arg3 harg3 arg4 harg4 arg5 harg5 arg6 harg6 arg7 harg7 v12 X2 X3 (arg5.view.writes (Elt F) arg5.view.junk [(⟨(Rect.unit (s := S512x1) ![0, 0] S512x1.size inb_S512x1_S512x1_0_0), k1_pay1⟩ : View.Piece (Elt F) S512x1 .f32)]) (arg6.view.writes (Elt F) arg6.view.junk [(⟨(Rect.unit (s := S512x1) ![0, 0] S512x1.size inb_S512x1_S512x1_0_0), k1_pay2⟩ : View.Piece (Elt F) S512x1 .f32)]) (arg7.view.writes (Elt F) arg7.view.junk [(⟨(Rect.unit (s := S512x1024) ![0, 0] S512x1024.size inb_S512x1024_S512x1024_0_0), k1_pay3⟩ : View.Piece (Elt F) S512x1024 .f32)]) (n + 1)) = _ from hs, tripL_eq, scrOf_succ _ _ _ hlt]
    dsimp only
    refine ⟨?_, ?_, ?_⟩
    · rw [List.singleton_append, List.cons_append, View.canon_cons_unit_zero zero2,
        readAt_whole_writes _ zero2, h1]
    · rw [List.singleton_append, List.cons_append, View.canon_cons_unit_zero zero2,
        readAt_whole_writes _ zero2, readAt_whole_writes _ zero2, h1, h2]
    · rw [List.singleton_append, List.cons_append, View.canon_cons_unit_zero zero2,
        readAt_whole_writes _ zero2, readAt_whole_writes _ zero2, h1, h3]

/-! ## The output block -/

section Whole2

variable {Val : EltTy → Type} {S : Shape} {e : EltTy}

/-- A load through the whole-shape rectangle of stores made over nothing reads what the stores leave. -/
theorem readAt_whole_writes_junk [∀ e, Nonempty (Val e)] {sig : RefSig} {κ : Kind} {sp : Space} (v : View sig κ sp S e)
    {off : Fin S.rank → Nat} (h : off = fun _ => 0) (inb : ∀ a, off a + S.size a ≤ S.size a)
    (L : List (View.Piece Val S e)) :
    v.readAt Val (Rect.unit off S.size inb).toLoadRect (v.writes Val v.junk L) = View.canon L := by
  rw [View.readAt_writes_junk_eq_canon]
  exact View.ld_unit_zero h inb (View.canon L)

end Whole2

/-- The body, run on a query block `x0` and the whole key and value arrays `x1`, `x2`, leaves in the output block the
    quotient payload of the numerator and the sum that the recurrence reaches after its 4 trips, trip `k` reading rows
    1024·k … of the keys and of the values. -/
theorem out1_eq (c : Dev nD) (i : grid1.Coords) (arg1 : Memref sig .tc .vmem S512x1024 .bf16) (harg1 : arg1.IsWhole) (arg2 : Memref sig .tc .vmem S4096x1024 .bf16) (harg2 : arg2.IsWhole) (arg3 : Memref sig .tc .vmem S4096x1024 .bf16) (harg3 : arg3.IsWhole) (arg4 : Memref sig .tc .vmem S512x1024 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1024 .f32) (harg7 : arg7.IsWhole)
    (x0 : Vec F S512x1024 .bf16) (x1 x2 : Vec F S4096x1024 .bf16) :
    out1_A_3 c i arg1 harg1 arg2 harg2 arg3 harg3 arg4 harg4 arg5 harg5 arg6 harg6 arg7 harg7 x0 x1 x2
      = k1_pay6 (scrOf (k1_pay4 x0) (fun k => View.ld x1 (Rect.unit (s := S4096x1024) (k1_off1 k) S1024x1024.size (k1_off1_inb k))) (fun k => View.ld x2 (Rect.unit (s := S4096x1024) (k1_off1 k) S1024x1024.size (k1_off1_inb k))) k1_t1_loop.trips).2.2 (scrOf (k1_pay4 x0) (fun k => View.ld x1 (Rect.unit (s := S4096x1024) (k1_off1 k) S1024x1024.size (k1_off1_inb k))) (fun k => View.ld x2 (Rect.unit (s := S4096x1024) (k1_off1 k) S1024x1024.size (k1_off1_inb k))) k1_t1_loop.trips).2.1 := by
  unfold out1_A_3
  rw [View.read_writes_eq_canon _ _ _ (cover1_A_3 c i arg1 harg1 arg2 harg2 arg3 harg3 arg4 harg4 arg5 harg5 arg6 harg6 arg7 harg7 x0 x1 x2)]
  unfold kernelRun1_A
  dsimp only
  sl_unfold_run_names
  rw [View.canon_unit_zero zero2, readAt_whole_writes_junk _ zero2, readAt_whole_writes_junk _ zero2]
  obtain ⟨-, h2, h3⟩ := canon_pb (F := F) Variants.none c none i arg1 harg1 arg2 harg2 arg3 harg3 arg4 harg4 arg5 harg5 arg6 harg6 arg7 harg7
    (View.readAt (Elt F) arg1.view (Rect.unit (s := S512x1024) ![0, 0] S512x1024.size inb_S512x1024_S512x1024_0_0).toLoadRect (harg1.unread x0)) (harg2.unread x1) (harg3.unread x2)
    k1_t1_loop.trips le_rfl
  refine (congrArg₂ (k1_pay6 (F := F)) h3 h2).trans ?_
  have e0 : View.readAt (Elt F) arg1.view (Rect.unit (s := S512x1024) ![0, 0] S512x1024.size inb_S512x1024_S512x1024_0_0).toLoadRect (harg1.unread x0) = x0 :=
    (View.readAt_eq_ld (Val := Elt F) arg1.view (harg1.unread x0) (Rect.unit (s := S512x1024) ![0, 0] S512x1024.size inb_S512x1024_S512x1024_0_0)).trans
      (by rw [harg1.read_unread]; exact View.ld_unit_zero zero2 _ x0)
  have eK : (fun k : Fin k1_t1_loop.trips => View.readAt (Elt F) arg2.view (Rect.unit (s := S4096x1024) (k1_off1 k) S1024x1024.size (k1_off1_inb k)).toLoadRect (harg2.unread x1))
      = fun k => View.ld x1 (Rect.unit (s := S4096x1024) (k1_off1 k) S1024x1024.size (k1_off1_inb k)) :=
    funext fun k => (View.readAt_eq_ld (Val := Elt F) arg2.view (harg2.unread x1) (Rect.unit (s := S4096x1024) (k1_off1 k) S1024x1024.size (k1_off1_inb k))).trans
      (by rw [harg2.read_unread])
  have eV : (fun k : Fin k1_t1_loop.trips => View.readAt (Elt F) arg3.view (Rect.unit (s := S4096x1024) (k1_off1 k) S1024x1024.size (k1_off1_inb k)).toLoadRect (harg3.unread x2))
      = fun k => View.ld x2 (Rect.unit (s := S4096x1024) (k1_off1 k) S1024x1024.size (k1_off1_inb k)) :=
    funext fun k => (View.readAt_eq_ld (Val := Elt F) arg3.view (harg3.unread x2) (Rect.unit (s := S4096x1024) (k1_off1 k) S1024x1024.size (k1_off1_inb k))).trans
      (by rw [harg3.read_unread])
  rw [e0, eK, eV]

end Cert.Attn.Body

end
-- ==== Proof.LibKeepdims.lean ====
/-
  A row reduction kept as a column: the three layout steps of `max(x, axis=-1, keepdims=True)` and
  `sum(x, axis=-1, keepdims=True)` on a matrix, each read at coordinates.

  * a `vector.multi_reduction` of an `[a, b]` matrix over its second axis, at row `i`: the fold of `max` from the
    accumulator's value, or the sum, over the row's entries `(i, k)`;
  * an `[a]` vector cast to the column `[a, 1]`, at `(i, u)`: the vector at `i`;
  * an `[a, 1]` column broadcast to `[a, b]`, at `(i, j)`: the column at `(i, 0)`.
-/
import Idealize.ShloMosaic.PureOps.Ideal.Laws
import Idealize.ShloMosaic.Lib.ValueIdx
import Idealize.ShloMosaic.Lib.Pipeline.Value

noncomputable section

namespace Idealize.ShloMosaic.ValueKeepdims

open Idealize.ShloMosaic Idealize.ShloMosaic.ValueIdx

variable {α : Type}

/-- Row `i` with column `k` put back on the reduced second axis is `(i, k)`. -/
theorem lift_axis1_ix2 {a b : ℕ} (h : (⟨2, ![a, b]⟩ : Shape).Reduces [1] (⟨1, ![a]⟩ : Shape)) (i : Fin a)
    (k : Fin ((⟨2, ![a, b]⟩ : Shape).size 1)) : h.lift (ix1 i) k = ix2 i (⟨k.val, k.isLt⟩ : Fin b) := by
  funext c; apply Fin.ext
  fin_cases c <;> rfl

/-- A float `vector.multi_reduction <maximumf>` of an `[a, b]` matrix over its second axis, read on the extended reals at
    row `i`: the fold of `max`, from the accumulator's value, over the row's entries. -/
theorem multiReduction_maximumf_row {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.maximumf.neutral φ hφ) (i : Fin a) :
    multiReduction .maximumf [1] ⟨1, ![a]⟩ src acc h hφ hacc (ix1 i)
      = (Finset.univ : Finset (Fin b)).fold max (Ideal.ofBits φ acc) (fun k => src (ix2 i k)) := by
  rw [Ideal.multiReduction_maximumf_single]
  have hf : (src ∘ h.lift (ix1 i)) = fun k : Fin b => src (ix2 i k) :=
    funext fun k => congrArg src (lift_axis1_ix2 h i k)
  exact congrArg (fun f => Finset.fold max (Ideal.ofBits φ acc) f (Finset.univ : Finset (Fin b))) hf

/-- A float `vector.multi_reduction <add>` of an `[a, b]` matrix over its second axis, read on the extended reals at row
    `i`: the sum of the row's entries. -/
theorem multiReduction_add_row {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.add.neutral φ hφ) (i : Fin a) :
    multiReduction .add [1] ⟨1, ![a]⟩ src acc h hφ hacc (ix1 i) = ∑ k : Fin b, src (ix2 i k) := by
  rw [Ideal.multiReduction_add_single]
  exact Finset.sum_congr rfl fun k _ => congrArg src (lift_axis1_ix2 h i k)

/-- An `[a]` vector cast to the column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- An `[a, 1]` column broadcast to `[a, b]` reads, at `(i, j)`, the column at `(i, 0)`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ =>
    show (0 : ℕ) = if (1 : ℕ) = 1 then 0 else j.val
    rw [if_pos rfl]

end Idealize.ShloMosaic.ValueKeepdims

end
-- ==== Proof.LibFoldBlocks.lean ====
/-
  Maxima and minima taken block by block.

  A maximum from the least element over a finite index set that is a product of blocks — here the columns
  `Fin n` cut into `A` runs of `B` consecutive columns, `n = A · B` — is the maximum over the blocks of each block's
  own maximum; dually for a minimum from the greatest element. A running value that starts at the least element and
  at step `k` becomes the larger of itself and block `k`'s maximum holds, after step `k`, the maximum of the blocks
  `0 … k`, and after the last step the maximum over everything. Nothing here depends on what is maximised.

  On the extended reals the least and greatest elements are the words `0xFF800000` and `0x7F800000` read as floats.
-/
import Mathlib.Order.Fin.Basic
import Mathlib.Data.Finset.Lattice.Fold
import Mathlib.Data.Fintype.Prod
import Mathlib.Logic.Equiv.Fin.Basic
import Idealize.ShloMosaic.PureOps.Ideal

namespace Cert.FoldBlocks

open Finset

/-! ## The columns as blocks -/

/-- Column `b + B · a` of `n = A · B` columns is column `b` of block `a`. -/
def blockEquiv {A B n : ℕ} (h : A * B = n) : Fin A × Fin B ≃ Fin n := finProdFinEquiv.trans (finCongr h)

theorem blockEquiv_val {A B n : ℕ} (h : A * B = n) (a : Fin A) (b : Fin B) :
    (blockEquiv h (a, b)).val = b.val + B * a.val := rfl

/-! ## Folds of `max` and `min` are suprema and infima -/

section Lattice

variable {α : Type*} [LinearOrder α]

theorem fold_max_eq_sup [OrderBot α] {ι : Type*} (s : Finset ι) (f : ι → α) : s.fold max ⊥ f = s.sup f := rfl

theorem fold_min_eq_inf [OrderTop α] {ι : Type*} (s : Finset ι) (f : ι → α) : s.fold min ⊤ f = s.inf f := rfl

/-- A supremum over everything, taken block by block. -/
theorem sup_univ_blocks [OrderBot α] {ι κ γ : Type*} [Fintype ι] [Fintype κ] [Fintype γ] (e : ι × κ ≃ γ) (f : γ → α) :
    (univ : Finset γ).sup f = (univ : Finset ι).sup fun a => (univ : Finset κ).sup fun b => f (e (a, b)) := by
  rw [← Finset.map_univ_equiv e, Finset.sup_map, ← Finset.univ_product_univ, Finset.sup_product_left]
  rfl

/-- An infimum over everything, taken block by block. -/
theorem inf_univ_blocks [OrderTop α] {ι κ γ : Type*} [Fintype ι] [Fintype κ] [Fintype γ] (e : ι × κ ≃ γ) (f : γ → α) :
    (univ : Finset γ).inf f = (univ : Finset ι).inf fun a => (univ : Finset κ).inf fun b => f (e (a, b)) := by
  rw [← Finset.map_univ_equiv e, Finset.inf_map, ← Finset.univ_product_univ, Finset.inf_product_left]
  rfl

/-- The fold of `max` from the least element over everything is the fold over the blocks of each block's fold. -/
theorem fold_max_blocks [OrderBot α] {ι κ γ : Type*} [Fintype ι] [Fintype κ] [Fintype γ] (e : ι × κ ≃ γ) (f : γ → α) :
    (univ : Finset γ).fold max ⊥ f
      = (univ : Finset ι).fold max ⊥ fun a => (univ : Finset κ).fold max ⊥ fun b => f (e (a, b)) :=
  sup_univ_blocks e f

/-- The fold of `min` from the greatest element likewise. -/
theorem fold_min_blocks [OrderTop α] {ι κ γ : Type*} [Fintype ι] [Fintype κ] [Fintype γ] (e : ι × κ ≃ γ) (f : γ → α) :
    (univ : Finset γ).fold min ⊤ f
      = (univ : Finset ι).fold min ⊤ fun a => (univ : Finset κ).fold min ⊤ fun b => f (e (a, b)) :=
  inf_univ_blocks e f

/-! ## The blocks done so far -/

/-- The blocks `0 … k`. -/
def upto (A k : ℕ) : Finset (Fin A) := univ.filter fun a => a.val ≤ k

theorem upto_zero {A : ℕ} (h : 0 < A) : upto A 0 = {⟨0, h⟩} := by
  ext a; simp only [upto, mem_filter, mem_univ, true_and, mem_singleton, Fin.ext_iff]; omega

theorem upto_succ {A : ℕ} (k : ℕ) (h : k + 1 < A) : upto A (k + 1) = insert ⟨k + 1, h⟩ (upto A k) := by
  ext a; simp only [upto, mem_filter, mem_univ, true_and, mem_insert, Fin.ext_iff]; omega

theorem upto_last {A : ℕ} (k : ℕ) (h : A ≤ k + 1) : upto A k = univ := by
  ext a; simp only [upto, mem_filter, mem_univ, true_and, iff_true]; have := a.isLt; omega

/-- After the first step the running maximum, started at the least element, is block 0's. -/
theorem sup_upto_zero [OrderBot α] {A : ℕ} (h : 0 < A) (blk : Fin A → α) :
    max ⊥ (blk ⟨0, h⟩) = (upto A 0).sup blk := by
  rw [upto_zero h, Finset.sup_singleton]; exact bot_sup_eq _

/-- A further step takes in the next block. -/
theorem sup_upto_succ [OrderBot α] {A : ℕ} (k : ℕ) (h : k + 1 < A) (blk : Fin A → α) :
    max ((upto A k).sup blk) (blk ⟨k + 1, h⟩) = (upto A (k + 1)).sup blk := by
  rw [upto_succ k h, Finset.sup_insert]; exact sup_comm _ _

/-- After the first step the running minimum, started at the greatest element, is block 0's. -/
theorem inf_upto_zero [OrderTop α] {A : ℕ} (h : 0 < A) (blk : Fin A → α) :
    min ⊤ (blk ⟨0, h⟩) = (upto A 0).inf blk := by
  rw [upto_zero h, Finset.inf_singleton]; exact top_inf_eq _

/-- A further step takes in the next block. -/
theorem inf_upto_succ [OrderTop α] {A : ℕ} (k : ℕ) (h : k + 1 < A) (blk : Fin A → α) :
    min ((upto A k).inf blk) (blk ⟨k + 1, h⟩) = (upto A (k + 1)).inf blk := by
  rw [upto_succ k h, Finset.inf_insert]; exact inf_comm _ _

/-- After the last step the running maximum of the blocks' maxima is the maximum over all `n = A · B` columns. -/
theorem sup_upto_last_blocks [OrderBot α] {A B n : ℕ} (hn : A * B = n) (k : ℕ) (h : A ≤ k + 1) (f : Fin n → α) :
    (upto A k).sup (fun a => (univ : Finset (Fin B)).fold max ⊥ fun b => f (blockEquiv hn (a, b)))
      = (univ : Finset (Fin n)).fold max ⊥ f := by
  rw [upto_last k h]; exact (fold_max_blocks (blockEquiv hn) f).symm

/-- … and the running minimum of the blocks' minima the minimum over all columns. -/
theorem inf_upto_last_blocks [OrderTop α] {A B n : ℕ} (hn : A * B = n) (k : ℕ) (h : A ≤ k + 1) (f : Fin n → α) :
    (upto A k).inf (fun a => (univ : Finset (Fin B)).fold min ⊤ fun b => f (blockEquiv hn (a, b)))
      = (univ : Finset (Fin n)).fold min ⊤ f := by
  rw [upto_last k h]; exact (fold_min_blocks (blockEquiv hn) f).symm

end Lattice

/-! ## The two infinities as floats -/

open Idealize.ShloMosaic

theorem negInf_eq_bot : Ideal.ofBits .f32 0xFF800000#32 = (⊥ : EReal) := by simp [Ideal.ofBits, Ideal.ieee]

theorem posInf_eq_top : Ideal.ofBits .f32 0x7F800000#32 = (⊤ : EReal) := by simp [Ideal.ofBits, Ideal.ieee]

end Cert.FoldBlocks
-- ==== Proof.AttnPayload.lean ====
/-
  The second kernel's loop-body arithmetic read at an index, on the extended reals.

  For a block of 512 query rows q, one block of 1024 keys kk and values vv, the running maximum and sum columns M, L
  and the running numerator Acc, each pure payload of the flash-attention body is read entry by entry:

    score        sc r b = ∑ e, q (r, e) · kk (b, e)          (both operands contracted on their second axis)
    new maximum  m' r   = max (M r) (max over b of sc r b, from -∞)
    new sum      exp (M r − m' r) · L r + (0 + ∑ b, exp (sc r b − m' r))
    new numer.   exp (M r − m' r) · Acc (r, d) + ∑ b, exp (sc r b − m' r) · vv (b, d)
    result       Acc (r, d) / L r

  and the three initial values are -∞, 0, 0.
-/
import proofs.«151747_j26431228739710_2_alg».proof.Proof.Gen.KernelIdeal.Skeleton
import proofs.«151747_j26431228739710_2_alg».proof.Proof.LibKeepdims
import proofs.«151747_j26431228739710_2_alg».proof.Proof.LibPlainDot
import proofs.«151747_j26431228739710_2_alg».proof.Proof.LibFoldBlocks
import Idealize.ShloMosaic.PureOps.Ideal.Laws
import Idealize.ShloMosaic.Lib.ValueIdx
import Idealize.ShloMosaic.Lib.Pipeline.Value
import Idealize.ShloMosaic.Lib.ValueLayout

noncomputable section

open scoped BigOperators

namespace Cert.Attn.Pay

open Idealize.ShloMosaic Idealize.ShloMosaic.ValueIdx Cert.KernelIdeal Cert.KernelIdeal.Gen

/-! ## The score product: both operands contracted on their second axis -/

/-- The dimension numbers of the score product: `M×K` by `N×K`, contracting both second axes. -/
abbrev DT : DotDims S512x1024 S1024x1024 S512x1024 := dot_S512x1024_S1024x1024_S512x1024_1_1_0_0_n_n

/-- Left operand, axis 0: the output's row. -/
theorem lhs0 (i : S512x1024.Idx) (c : DT.contr.Idx) : (DT.lhsIdx i c 0).val = (i 0).val := by
  unfold DotDims.lhsIdx
  rw [dif_neg (show ¬(0 : Fin S512x1024.rank) ∈ DT.lhsBatch by decide),
    dif_pos (show (0 : Fin S512x1024.rank) ∈ DT.lhsNonContracting by decide)]
  rfl

/-- Right operand, axis 0: the output's column. -/
theorem rhs0 (i : S512x1024.Idx) (c : DT.contr.Idx) : (DT.rhsIdx i c 0).val = (i 1).val := by
  unfold DotDims.rhsIdx
  rw [dif_neg (show ¬(0 : Fin S1024x1024.rank) ∈ DT.rhsBatch by decide),
    dif_pos (show (0 : Fin S1024x1024.rank) ∈ DT.rhsNonContracting by decide)]
  rfl

/-- The left operand's index at output `(p, j)` and contraction coordinate `k` is `(p, k)`. -/
theorem lhsIdx_T (p : Fin 512) (j : Fin 1024) (k : Fin 1024) :
    DT.lhsIdx (ix2 p j) ((contrEquiv1 DT 1024 rfl rfl).symm k) = ix2 p k := by
  have hk := contrEquiv1_symm_val DT 1024 rfl rfl k
  exact funext fun a => Fin.ext (by
    match a with
    | ⟨0, _⟩ => exact lhs0 _ _
    | ⟨1, _⟩ => exact (DT.lhsIdx_val_of_single rfl _ _).trans hk)

/-- The right operand's index at output `(p, j)` and contraction coordinate `k` is `(j, k)`. -/
theorem rhsIdx_T (p : Fin 512) (j : Fin 1024) (k : Fin 1024) :
    DT.rhsIdx (ix2 p j) ((contrEquiv1 DT 1024 rfl rfl).symm k) = ix2 j k := by
  have hk := contrEquiv1_symm_val DT 1024 rfl rfl k
  exact funext fun a => Fin.ext (by
    match a with
    | ⟨0, _⟩ => exact rhs0 _ _
    | ⟨1, _⟩ => exact (DT.rhsIdx_val_of_single rfl _ _).trans hk)

/-- The score of query row `r` against key `b` of the block. -/
def sc (q : FVec Ideal S512x1024 .bf16) (kk : Vec Ideal S1024x1024 .bf16) (r : Fin 512) (b : Fin 1024) : EReal :=
  ∑ e : Fin 1024, q (ix2 r e) * kk (ix2 b e)

/-- The score product into the zero accumulator, at entry `(p, j)`. -/
theorem matmulT_zero_apply (l : FVec Ideal S512x1024 .bf16) (rr : FVec Ideal S1024x1024 .bf16) (p : Fin 512) (j : Fin 1024) :
    FloatOps.matmul DT none l rr (constant S512x1024 .f32 0x00000000#32) (ix2 p j)
      = ∑ k : Fin 1024, l (ix2 p k) * rr (ix2 j k) := by
  rw [Ideal.matmul_constant_zero_apply]
  rw [← Equiv.sum_comp (contrEquiv1 DT 1024 rfl rfl).symm]
  refine Finset.sum_congr rfl fun k _ => ?_
  rw [lhsIdx_T, rhsIdx_T]

variable (q : FVec Ideal S512x1024 .bf16) (kk vv : Vec Ideal S1024x1024 .bf16) (M L : Vec Ideal S512x1 .f32)
  (Acc : Vec Ideal S512x1024 .f32) (r : Fin 512) (d : Fin 1024)

theorem pay7_apply (b : Fin 1024) : k1_pay7 (F := Ideal) q kk (ix2 r b) = sc q kk r b := by
  unfold k1_pay7
  refine (congrArg (fun w => FloatOps.matmul DT none q w (constant S512x1024 .f32 0x00000000#32) (ix2 r b))
    (shapeCast_self kk shapeCasts_S1024x1024_S1024x1024)).trans ?_
  exact matmulT_zero_apply q kk r b

theorem pay4_apply (q0 : Vec Ideal S512x1024 .bf16) : k1_pay4 (F := Ideal) q0 = q0 := by
  unfold k1_pay4
  exact shapeCast_self q0 shapeCasts_S512x1024_S512x1024

theorem pay5_apply (v : FVec Ideal S512x1 .f32) : k1_pay5 (F := Ideal) v = v := by
  unfold k1_pay5
  exact shapeCast_self v shapeCasts_S512x1_S512x1

/-! ## The row maximum and the row sum kept as columns -/

/-- The row maximum from the word of -∞, at row `r`: the fold of `max` from `⊥` over the row. -/
theorem rowMax_apply (src : FVec Ideal S512x1024 .f32) (r : Fin 512) :
    multiReduction (F := Ideal) .maximumf [1] S512 src 0xFF800000#32 reduces_S512x1024_S512 (.inl rfl) rfl (ix1 r)
      = (Finset.univ : Finset (Fin 1024)).fold max ⊥ (fun k => src (ix2 r k)) :=
  (ValueKeepdims.multiReduction_maximumf_row src _ reduces_S512x1024_S512 (.inl rfl) rfl r).trans
    (congrArg (fun z => (Finset.univ : Finset (Fin 1024)).fold max z (fun k => src (ix2 r k)))
      Cert.FoldBlocks.negInf_eq_bot)

/-- The row sum from the zero word, at row `r`: the sum over the row. -/
theorem rowSum_apply (src : FVec Ideal S512x1024 .f32) (r : Fin 512) :
    multiReduction (F := Ideal) .add [1] S512 src 0x00000000#32 reduces_S512x1024_S512 (.inl rfl) rfl (ix1 r)
      = ∑ k : Fin 1024, src (ix2 r k) :=
  ValueKeepdims.multiReduction_add_row src _ reduces_S512x1024_S512 (.inl rfl) rfl r

/-- The block's new running maximum of row `r`. -/
def mNew (q : FVec Ideal S512x1024 .bf16) (kk : Vec Ideal S1024x1024 .bf16) (M : Vec Ideal S512x1 .f32) (r : Fin 512) : EReal :=
  max (M (ix2 r (0 : Fin 1))) ((Finset.univ : Finset (Fin 1024)).fold max ⊥ fun b => sc q kk r b)

theorem pay8_apply :
    k1_pay8 (F := Ideal) q kk M (ix2 r (0 : Fin 1))
      = max (M (ix2 r (0 : Fin 1))) ((Finset.univ : Finset (Fin 1024)).fold max ⊥ fun b => sc q kk r b) := by
  unfold k1_pay8
  refine congrArg (fun z => max (M (ix2 r (0 : Fin 1))) z) ?_
  refine (ValueKeepdims.shapeCast_a_a1_apply _ shapeCasts_S512_S512x1 r (0 : Fin 1)).trans ?_
  refine (rowMax_apply (k1_pay7 (F := Ideal) q kk) r).trans ?_
  exact congrArg (fun f => (Finset.univ : Finset (Fin 1024)).fold max ⊥ f) (funext fun b => pay7_apply q kk r b)

/-- The rescaling factor `exp (M r − m' r)` of row `r`. -/
theorem pay9_apply :
    k1_pay9 (F := Ideal) q kk M (ix2 r (0 : Fin 1)) = Ideal.exp (M (ix2 r (0 : Fin 1)) - mNew q kk M r) := by
  unfold k1_pay9
  exact congrArg (fun z => Ideal.exp (M (ix2 r (0 : Fin 1)) - z)) (pay8_apply q kk M r)

/-- The shifted exponential `exp (sc r b − m' r)` of key `b`. -/
theorem pay10_apply (b : Fin 1024) :
    k1_pay10 (F := Ideal) q kk M (ix2 r b) = Ideal.exp (sc q kk r b - mNew q kk M r) := by
  unfold k1_pay10
  refine congrArg Ideal.exp ?_
  refine (congrArg (fun z => z - broadcastTo S512x1024 (k1_pay8 (F := Ideal) q kk M) broadcasts_S512x1_S512x1024 (ix2 r b))
    (pay7_apply q kk r b)).trans ?_
  refine congrArg (fun z => sc q kk r b - z) ?_
  exact (ValueKeepdims.broadcastTo_a1_ab_apply _ broadcasts_S512x1_S512x1024 r b).trans (pay8_apply q kk M r)

theorem pay11_apply :
    k1_pay11 (F := Ideal) q kk M L (ix2 r (0 : Fin 1))
      = Ideal.exp (M (ix2 r (0 : Fin 1)) - max (M (ix2 r (0 : Fin 1))) ((Finset.univ : Finset (Fin 1024)).fold max ⊥ fun b => sc q kk r b))
          * L (ix2 r (0 : Fin 1))
        + (0 + ∑ b : Fin 1024, Ideal.exp (sc q kk r b
            - max (M (ix2 r (0 : Fin 1))) ((Finset.univ : Finset (Fin 1024)).fold max ⊥ fun b => sc q kk r b))) := by
  unfold k1_pay11
  refine (congrFun (shapeCast_self _ shapeCasts_S512x1_S512x1) (ix2 r (0 : Fin 1))).trans ?_
  refine congrArg₂ (fun y z => y * L (ix2 r (0 : Fin 1)) + z) (pay9_apply q kk M r) ?_
  refine (ValueKeepdims.shapeCast_a_a1_apply _ shapeCasts_S512_S512x1 r (0 : Fin 1)).trans ?_
  refine (rowSum_apply (k1_pay10 (F := Ideal) q kk M) r).trans ?_
  refine Eq.trans ?_ (zero_add _).symm
  exact Finset.sum_congr rfl fun b _ => pay10_apply q kk M r b

theorem pay12_apply :
    k1_pay12 (F := Ideal) q kk vv M Acc (ix2 r d)
      = Ideal.exp (M (ix2 r (0 : Fin 1)) - max (M (ix2 r (0 : Fin 1))) ((Finset.univ : Finset (Fin 1024)).fold max ⊥ fun b => sc q kk r b))
          * Acc (ix2 r d)
        + ∑ b : Fin 1024, Ideal.exp (sc q kk r b
            - max (M (ix2 r (0 : Fin 1))) ((Finset.univ : Finset (Fin 1024)).fold max ⊥ fun b => sc q kk r b)) * vv (ix2 b d) := by
  unfold k1_pay12
  refine (congrFun (shapeCast_self _ shapeCasts_S512x1024_S512x1024) (ix2 r d)).trans ?_
  refine congrArg₂ (fun y z => y * Acc (ix2 r d) + z) ?_ ?_
  · exact (ValueKeepdims.broadcastTo_a1_ab_apply _ broadcasts_S512x1_S512x1024 r d).trans (pay9_apply q kk M r)
  · refine (congrArg (fun w => FloatOps.matmul (DotDims.plain 512 1024 1024) none
        (truncf .bf16 (k1_pay10 (F := Ideal) q kk M) bitsLt_bf16_f32) w (constant S512x1024 .f32 0x00000000#32) (ix2 r d))
      (shapeCast_self vv shapeCasts_S1024x1024_S1024x1024)).trans ?_
    refine (Cert.Lib.PlainDot.matmul_zero_apply none
      (truncf .bf16 (k1_pay10 (F := Ideal) q kk M) bitsLt_bf16_f32) vv r d).trans ?_
    exact Finset.sum_congr rfl fun b _ => congrArg (fun z => z * vv (ix2 b d)) (pay10_apply q kk M r b)

/-! ## The result and the initial values -/

theorem pay6_apply (Acc : Vec Ideal S512x1024 .f32) (L : Vec Ideal S512x1 .f32) (r : Fin 512) (d : Fin 1024) :
    k1_pay6 (F := Ideal) Acc L (ix2 r d) = Ideal.div (Acc (ix2 r d)) (L (ix2 r (0 : Fin 1))) := by
  unfold k1_pay6
  exact congrArg (fun z => Ideal.div (Acc (ix2 r d)) z)
    (ValueKeepdims.broadcastTo_a1_ab_apply L broadcasts_S512x1_S512x1024 r d)

/-- The initial maximum: the broadcast word of -∞. -/
theorem pay1_apply : k1_pay1 (F := Ideal) (ix2 r (0 : Fin 1)) = ⊥ := by
  unfold k1_pay1
  refine (congrFun (shapeCast_self _ shapeCasts_S512x1_S512x1) (ix2 r (0 : Fin 1))).trans ?_
  exact Cert.FoldBlocks.negInf_eq_bot

/-- The initial sum: the broadcast zero word. -/
theorem pay2_apply : k1_pay2 (F := Ideal) (ix2 r (0 : Fin 1)) = 0 := by
  unfold k1_pay2
  refine (congrFun (shapeCast_self _ shapeCasts_S512x1_S512x1) (ix2 r (0 : Fin 1))).trans ?_
  exact Ideal.ofBits_zero_f32

/-- The initial numerator: the broadcast zero word. -/
theorem pay3_apply : k1_pay3 (F := Ideal) (ix2 r d) = 0 := by
  unfold k1_pay3
  refine (congrFun (shapeCast_self _ shapeCasts_S512x1024_S512x1024) (ix2 r d)).trans ?_
  exact Ideal.ofBits_zero_f32

end Cert.Attn.Pay

end
-- ==== Proof.AttnPoint.lean ====
/-
  The second kernel's carried state, read at one entry, is the specification's recurrence.

  A block of 512 query rows walks the 4 key and value blocks; block k is rows 1024·k … 1024·k + 1023 of the whole key
  and value arrays. For a row r of the query block that is row i of the whole query array, and a column d, the triple

      (maximum column at (r, 0), sum column at (r, 0), numerator at (r, d))

  after n blocks is the specification's triple `krun` after n blocks: both start at (-∞, 0, 0), and one block's three
  payloads at these entries are the specification's step, the block's score of key b being the score against key
  b + 1024·k of the whole array. The result payload at (r, d) is then numerator over sum after the 4 blocks.
-/
import proofs.«151747_j26431228739710_2_alg».proof.Proof.AttnState
import proofs.«151747_j26431228739710_2_alg».proof.Proof.AttnPayload
import proofs.«151747_j26431228739710_2_alg».proof.Proof.Spec
import proofs.«151747_j26431228739710_2_alg».proof.Proof.Gen.KernelIdeal
import Idealize.ShloMosaic.Lib.Pipeline.Value

noncomputable section

open scoped BigOperators

namespace Cert.Attn.Point

open Idealize.ShloMosaic Idealize.ShloMosaic.ValueIdx Cert.KernelIdeal Cert.KernelIdeal.Gen Cert.Attn.Pay

/-- The rectangle block `k` of the keys (and of the values) is loaded through: 1024 rows from row `1024·k`. -/
abbrev kRect (k : Fin k1_t1_loop.trips) : Rect S4096x1024 :=
  Rect.unit (s := S4096x1024) (k1_off1 k) S1024x1024.size (Gen.k1_off1_inb k)

/-- Entry `(b, e)` of block `k` sits at row `b + 1024·k`, column `e` of the whole array. -/
theorem kRect_idx (k : Fin k1_t1_loop.trips) (hk : k.val < 4) (b e : Fin 1024) :
    (kRect k).idx (ix2 b e) = ix2 (Cert.Attn.key ⟨k.val, hk⟩ b) e := by
  have ho := Gen.k1_off1_eq k
  funext a
  apply Fin.ext
  match a with
  | ⟨0, _⟩ =>
    show k1_off1 k 0 + 1 * b.val = b.val + 1024 * k.val
    rw [ho]
    show 1024 * k.val + 1 * b.val = b.val + 1024 * k.val
    omega
  | ⟨1, _⟩ =>
    show k1_off1 k 1 + 1 * e.val = e.val
    rw [ho]
    show 0 + 1 * e.val = e.val
    omega

/-- One block's three payloads at the entries of row `r` and column `d` are the specification's step, once the
    block's scores and values are those of the specification's block `t`. -/
theorem step_apply (q : FVec Ideal S512x1024 .bf16) (kk vv : Vec Ideal S1024x1024 .bf16) (Mc Lc : Vec Ideal S512x1 .f32)
    (Ac : Vec Ideal S512x1024 .f32) (r : Fin 512) (d : Fin 1024)
    (Q K V : Cert.Attn.SX.Idx → EReal) (i : Fin 4096) (t : Fin 4)
    (hs : ∀ b : Fin 1024, sc q kk r b = Cert.Attn.kscore Q K i t b)
    (hv : ∀ b : Fin 1024, vv (ix2 b d) = V (ix2 (Cert.Attn.key t b) d)) :
    ((k1_pay5 (F := Ideal) (k1_pay8 (F := Ideal) q kk Mc) (ix2 r (0 : Fin 1)),
      k1_pay11 (F := Ideal) q kk Mc Lc (ix2 r (0 : Fin 1)),
      k1_pay12 (F := Ideal) q kk vv Mc Ac (ix2 r d)) : EReal × EReal × EReal)
      = Cert.Attn.kstep Q K V i d t (Mc (ix2 r (0 : Fin 1)), Lc (ix2 r (0 : Fin 1)), Ac (ix2 r d)) := by
  have hsf : (fun b : Fin 1024 => sc q kk r b) = fun b => Cert.Attn.kscore Q K i t b := funext hs
  rw [pay5_apply, pay8_apply, pay11_apply, pay12_apply, hsf]
  simp only [hs, hv]
  rfl

/-- The carried state at the entries of row `r` and column `d`, after `n` blocks, is the specification's triple. -/
theorem state_apply (qblk : FVec Ideal S512x1024 .bf16) (Karr Varr : Vec Ideal S4096x1024 .bf16) (Q : Cert.Attn.SX.Idx → EReal)
    (i : Fin 4096) (r : Fin 512) (d : Fin 1024) (hq : ∀ e : Fin 1024, qblk (ix2 r e) = Q (ix2 i e)) :
    ∀ n, n ≤ 4 →
      ((Cert.Attn.Body.scrOf qblk (fun k => View.ld Karr (kRect k)) (fun k => View.ld Varr (kRect k)) n).1 (ix2 r (0 : Fin 1)),
       (Cert.Attn.Body.scrOf qblk (fun k => View.ld Karr (kRect k)) (fun k => View.ld Varr (kRect k)) n).2.1 (ix2 r (0 : Fin 1)),
       (Cert.Attn.Body.scrOf qblk (fun k => View.ld Karr (kRect k)) (fun k => View.ld Varr (kRect k)) n).2.2 (ix2 r d))
        = Cert.Attn.krun Q Karr Varr i d n := by
  intro n
  induction n with
  | zero =>
    intro _
    show ((k1_pay1 (F := Ideal) (ix2 r (0 : Fin 1)), k1_pay2 (F := Ideal) (ix2 r (0 : Fin 1)),
      k1_pay3 (F := Ideal) (ix2 r d)) : EReal × EReal × EReal) = (⊥, 0, 0)
    rw [pay1_apply, pay2_apply, pay3_apply]
  | succ n ih =>
    intro hn
    have h4 : n < 4 := by omega
    have h : n < k1_t1_loop.trips := by rw [Cert.Attn.Body.trips_eq]; exact h4
    have ih' := ih (by omega)
    have hk : Cert.Attn.krun Q Karr Varr i d (n + 1)
        = Cert.Attn.kstep Q Karr Varr i d ⟨n, h4⟩ (Cert.Attn.krun Q Karr Varr i d n) := by
      rw [Cert.Attn.krun]
      exact dif_pos h4
    refine (congrArg (fun s : Vec Ideal S512x1 .f32 × Vec Ideal S512x1 .f32 × Vec Ideal S512x1024 .f32 =>
      ((s.1 (ix2 r (0 : Fin 1)), s.2.1 (ix2 r (0 : Fin 1)), s.2.2 (ix2 r d)) : EReal × EReal × EReal))
      (Cert.Attn.Body.scrOf_succ qblk (fun k => View.ld Karr (kRect k)) (fun k => View.ld Varr (kRect k)) h)).trans ?_
    refine Eq.trans ?_ hk.symm
    refine Eq.trans ?_ (congrArg (Cert.Attn.kstep Q Karr Varr i d ⟨n, h4⟩) ih')
    refine step_apply qblk (View.ld Karr (kRect ⟨n, h⟩)) (View.ld Varr (kRect ⟨n, h⟩)) _ _ _ r d Q Karr Varr i ⟨n, h4⟩ ?_ ?_
    · intro b
      unfold sc Cert.Attn.kscore
      refine Finset.sum_congr rfl fun e _ => ?_
      rw [hq e]
      exact congrArg (fun z => Q (ix2 i e) * Karr z) (kRect_idx ⟨n, h⟩ h4 b e)
    · intro b
      exact congrArg Varr (kRect_idx ⟨n, h⟩ h4 b d)

/-- The result payload at `(r, d)` is the specification's result: numerator over sum after the 4 blocks. -/
theorem out_apply (qblk : FVec Ideal S512x1024 .bf16) (Karr Varr : Vec Ideal S4096x1024 .bf16) (Q : Cert.Attn.SX.Idx → EReal)
    (i : Fin 4096) (r : Fin 512) (d : Fin 1024) (hq : ∀ e : Fin 1024, qblk (ix2 r e) = Q (ix2 i e)) :
    k1_pay6 (F := Ideal)
        (Cert.Attn.Body.scrOf qblk (fun k => View.ld Karr (kRect k)) (fun k => View.ld Varr (kRect k)) k1_t1_loop.trips).2.2
        (Cert.Attn.Body.scrOf qblk (fun k => View.ld Karr (kRect k)) (fun k => View.ld Varr (kRect k)) k1_t1_loop.trips).2.1
        (ix2 r d)
      = Cert.Attn.kerOut Q Karr Varr i d := by
  have e4 : Cert.Attn.Body.scrOf qblk (fun k => View.ld Karr (kRect k)) (fun k => View.ld Varr (kRect k)) k1_t1_loop.trips
      = Cert.Attn.Body.scrOf qblk (fun k => View.ld Karr (kRect k)) (fun k => View.ld Varr (kRect k)) 4 :=
    congrArg (Cert.Attn.Body.scrOf qblk (fun k => View.ld Karr (kRect k)) (fun k => View.ld Varr (kRect k)))
      Cert.Attn.Body.trips_eq
  have st := state_apply qblk Karr Varr Q i r d hq 4 (Nat.le_refl 4)
  rw [e4]
  refine (pay6_apply _ _ r d).trans ?_
  unfold Cert.Attn.kerOut
  rw [← st]

end Cert.Attn.Point

end
-- ==== Proof.AttnBlocks.lean ====
/-
  The second kernel's arrays, block by block.

  The kernel walks the 4096 query rows in 8 blocks of 512: at point t it is given rows 512·t … 512·t + 511 of q, the
  whole of k and the whole of v, and writes rows 512·t … 512·t + 511 of the result.  Read at coordinates, row r of point
  t's block of q is row 512·t + r of q, and every point's block of k and of v is the array itself.  The 8 output blocks
  tile the result (row i lies in block i / 512), so if every point's block is the restriction of one function G of the
  whole array's indices to its rows, the array after the last point is G.
-/
import proofs.«151747_j26431228739710_2_alg».proof.Proof.Gen.KernelIdeal.Frame
import proofs.«151747_j26431228739710_2_alg».proof.Proof.Spec
import Idealize.ShloMosaic.Lib.Pipeline.Value
import Idealize.ShloMosaic.Lib.ValueIdx

set_option maxRecDepth 16384

noncomputable section

namespace Cert.Attn.Blocks

open Idealize.ShloMosaic Idealize.ShloMosaic.TcCoe Idealize.SL.Sem Cert.KernelIdeal Cert.KernelIdeal.Gen Idealize.ShloMosaic.ValueIdx
open Idealize.ShloMosaic.Pipeline (Dat)

variable (V : (c : Dev nD) → (b : Ref sig .tc) → Buf (Elt Ideal) ((c : Thread nD τ).loc b))

/-- The grid has 8 points. -/
theorem points : cfg1.N = 8 := N_1

/-- Row r of point t's block is row 512·t + r of the array. -/
abbrev grow (t : Fin cfg1.N) (r : Fin 512) : Fin 4096 :=
  ⟨512 * t.val + r.val, by have := t.isLt; have h : cfg1.N = 8 := points; have := r.isLt; omega⟩

/-- The block indices, decided over the grid: the blocks of q and of the result move down the rows with the point, on
    the one block column; the blocks of k and of v stay at the origin. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-! ## The input blocks at coordinates -/

/-- Entry (r, e) of point t's block of q is entry (512·t + r, e) of q. -/
theorem iblk_q (c : Dev nD) (t : Fin cfg1.N) (r : Fin 512) (e : Fin 1024) :
    iblk1 (F := Ideal) V c 0 t (ix2 r e) = V c (Pipeline.arrRef spec1 0) (ix2 (grow t r) e) := by
  obtain ⟨h0, h1, -⟩ := idx_facts t
  unfold iblk1
  rw [View.read_apply]
  refine congrArg (V c (Pipeline.arrRef spec1 0)) (funext fun a => Fin.ext ?_)
  match a with
  | ⟨0, _⟩ => show win1_0.index t (0 : Fin 2) * 512 + 1 * r.val = 512 * t.val + r.val; rw [h0]; omega
  | ⟨1, _⟩ => show win1_0.index t (1 : Fin 2) * 1024 + 1 * e.val = e.val; rw [h1]; omega

/-- Every point's block of k is k. -/
theorem iblk_k (c : Dev nD) (t : Fin cfg1.N) (j : Fin 4096) (e : Fin 1024) :
    iblk1 (F := Ideal) V c 1 t (ix2 j e) = V c (Pipeline.arrRef spec1 1) (ix2 j e) := by
  obtain ⟨-, -, h0, h1, -⟩ := idx_facts t
  unfold iblk1
  rw [View.read_apply]
  refine congrArg (V c (Pipeline.arrRef spec1 1)) (funext fun a => Fin.ext ?_)
  match a with
  | ⟨0, _⟩ => show win1_1.index t (0 : Fin 2) * 4096 + 1 * j.val = j.val; rw [h0]; omega
  | ⟨1, _⟩ => show win1_1.index t (1 : Fin 2) * 1024 + 1 * e.val = e.val; rw [h1]; omega

/-- Every point's block of v is v. -/
theorem iblk_v (c : Dev nD) (t : Fin cfg1.N) (j : Fin 4096) (e : Fin 1024) :
    iblk1 (F := Ideal) V c 2 t (ix2 j e) = V c (Pipeline.arrRef spec1 2) (ix2 j e) := by
  obtain ⟨-, -, -, -, h0, h1, -⟩ := idx_facts t
  unfold iblk1
  rw [View.read_apply]
  refine congrArg (V c (Pipeline.arrRef spec1 2)) (funext fun a => Fin.ext ?_)
  match a with
  | ⟨0, _⟩ => show win1_2.index t (0 : Fin 2) * 4096 + 1 * j.val = j.val; rw [h0]; omega
  | ⟨1, _⟩ => show win1_2.index t (1 : Fin 2) * 1024 + 1 * e.val = e.val; rw [h1]; omega

/-! ## From the output's blocks to the array -/

/-- Entry (r, d) of point t's output block sits at entry (512·t + r, d) of the result. -/
theorem emb_out (t : Fin cfg1.N) (r : Fin 512) (d : Fin 1024) :
    ((cfg1.win 3).blk t).view.emb (ix2 r d) = ix2 (grow t r) d := by
  obtain ⟨-, -, -, -, -, -, h0, h1⟩ := idx_facts t
  refine funext fun a => Fin.ext ?_
  match a with
  | ⟨0, _⟩ => show win1_3.index t (0 : Fin 2) * 512 + 1 * r.val = 512 * t.val + r.val; rw [h0]; omega
  | ⟨1, _⟩ => show win1_3.index t (1 : Fin 2) * 1024 + 1 * d.val = d.val; rw [h1]; omega

/-- What point t writes back is block t of G, when the point's block is G on its rows. -/
theorem flushed_eq (c : Dev nD) (G : Cert.Attn.SX.Idx → EReal)
    (hblk : ∀ (t : Fin cfg1.N) (r : Fin 512) (d : Fin 1024), outsAt1 (F := Ideal) V c t (ix2 r d) = G (ix2 (grow t r) d))
    (t : Fin cfg1.N) :
    (dat1 (F := Ideal) V c).flushed 3 t = ((cfg1.win 3).blk t).view.read (Elt Ideal) G := by
  show (cfg1.win 3).cut (grid1.coords t) ((dat1 (F := Ideal) V c).after 3 t) = _
  rw [after1_3]
  show (fun y : S512x1024.Idx => outsAt1 (F := Ideal) V c t y) = fun y : S512x1024.Idx => G (((cfg1.win 3).blk t).view.emb y)
  funext y
  obtain ⟨r, d, rfl⟩ : ∃ (r : Fin 512) (d : Fin 1024), y = ix2 r d := ⟨y 0, y 1, eq_ix2 y⟩
  exact (hblk t r d).trans (congrArg G (emb_out t r d).symm)

/-- An index of the result is in point t's block iff each coordinate is in the block's range on its axis. -/
theorem mem_blk (t : Fin cfg1.N) (i : S4096x1024.Idx) :
    i ∈ ((cfg1.win 3).blk t).view.set ↔ ∀ a : Fin 2, win1_3.index t a * S512x1024.size a ≤ (i a).val ∧ (i a).val < win1_3.index t a * S512x1024.size a + S512x1024.size a := by
  show i ∈ ((View.whole main_v1).slice (win1_3.rect t)).set ↔ _
  rw [View.set_slice_whole, Rect.mem_set_unit]
  exact Iff.rfl

/-- Every index of the result is in some point's block: row i is in block i / 512. -/
theorem cover (i : S4096x1024.Idx) :
    ∃ t : Fin cfg1.N, (cfg1.win 3).flush t = true ∧ i ∈ ((cfg1.win 3).blk t).view.set := by
  have hi0 : (i 0).val < 4096 := (i 0).isLt
  have hi1 : (i 1).val < 1024 := (i 1).isLt
  have hN : cfg1.N = 8 := points
  obtain ⟨t, ht⟩ : ∃ t : Fin cfg1.N, t.val = (i 0).val / 512 := ⟨⟨(i 0).val / 512, by omega⟩, rfl⟩
  obtain ⟨-, -, -, -, -, -, h0, h1⟩ := idx_facts t
  refine ⟨t, flush1_3 t, ?_⟩
  rw [mem_blk]
  intro a
  match a with
  | ⟨0, _⟩ => show win1_3.index t (0 : Fin 2) * 512 ≤ (i 0).val ∧ (i 0).val < win1_3.index t (0 : Fin 2) * 512 + 512; rw [h0]; omega
  | ⟨1, _⟩ => show win1_3.index t (1 : Fin 2) * 1024 ≤ (i 1).val ∧ (i 1).val < win1_3.index t (1 : Fin 2) * 1024 + 1024; rw [h1]; omega

/-- The result array after the last point is G, if every point's block is G on the point's rows. -/
theorem arr_of_blocks (c : Dev nD) (G : Cert.Attn.SX.Idx → EReal)
    (hblk : ∀ (t : Fin cfg1.N) (r : Fin 512) (d : Fin 1024), outsAt1 (F := Ideal) V c t (ix2 r d) = G (ix2 (grow t r) d)) :
    (dat1 (F := Ideal) V c).arrAt 3 cfg1.N = G :=
  (dat1 (F := Ideal) V c).arrAt_eq_of_cover 3 G (fun t _ => flushed_eq V c G hblk t) cover

end Cert.Attn.Blocks

end
-- ==== Proof.AttnValue.lean ====
/-
  The second kernel region's output array as one function of its three input arrays.

  Point t of the grid handles query rows 512·t … 512·t + 511: its block of the query array, and the whole key and
  value arrays.  What it leaves in its output block, at row r and column d, is the numerator over the sum that the
  4-block recurrence reaches for query row 512·t + r and column d (`kerOut`).  The 8 blocks tile the output, so
  the output array after the last point is `kerArr` of the three arrays the region was entered with.
-/
import proofs.«151747_j26431228739710_2_alg».proof.Proof.Gen.KernelIdeal.Frame
import proofs.«151747_j26431228739710_2_alg».proof.Proof.Spec
import proofs.«151747_j26431228739710_2_alg».proof.Proof.AttnBody
import proofs.«151747_j26431228739710_2_alg».proof.Proof.AttnPayload
import proofs.«151747_j26431228739710_2_alg».proof.Proof.AttnPoint
import proofs.«151747_j26431228739710_2_alg».proof.Proof.AttnBlocks

set_option maxRecDepth 16384

noncomputable section

namespace Cert.Attn.Value

open Idealize.ShloMosaic Idealize.ShloMosaic.TcCoe Idealize.SL.Sem Idealize.ShloMosaic.ValueIdx
open Cert.KernelIdeal Cert.KernelIdeal.Gen

variable (V : (c : Dev nD) → (b : Ref sig .tc) → Buf (Elt Ideal) ((c : Thread nD τ).loc b))

/-- What point t leaves at row r, column d of its output block: the recurrence's quotient for query row 512·t + r. -/
theorem block_entry (c : Dev nD) (t : Fin cfg1.N) (r : Fin 512) (d : Fin 1024) :
    outsAt1 (F := Ideal) V c t (ix2 r d)
      = Cert.Attn.kerArr (V c (Pipeline.arrRef spec1 0)) (V c (Pipeline.arrRef spec1 1)) (V c (Pipeline.arrRef spec1 2))
          (ix2 (Cert.Attn.Blocks.grow t r) d) := by
  have hK : (iblk1 (F := Ideal) V c 1 t : Vec Ideal S4096x1024 .bf16) = V c (Pipeline.arrRef spec1 1) :=
    funext fun j => by
      obtain ⟨a, b, rfl⟩ : ∃ (a : Fin 4096) (b : Fin 1024), j = ix2 a b := ⟨j 0, j 1, eq_ix2 j⟩
      exact Cert.Attn.Blocks.iblk_k V c t a b
  have hV : (iblk1 (F := Ideal) V c 2 t : Vec Ideal S4096x1024 .bf16) = V c (Pipeline.arrRef spec1 2) :=
    funext fun j => by
      obtain ⟨a, b, rfl⟩ : ∃ (a : Fin 4096) (b : Fin 1024), j = ix2 a b := ⟨j 0, j 1, eq_ix2 j⟩
      exact Cert.Attn.Blocks.iblk_v V c t a b
  unfold outsAt1
  rw [Cert.Attn.Body.out1_eq, Cert.Attn.Pay.pay4_apply]
  refine (Cert.Attn.Point.out_apply (iblk1 (F := Ideal) V c 0 t) (iblk1 (F := Ideal) V c 1 t) (iblk1 (F := Ideal) V c 2 t)
    (V c (Pipeline.arrRef spec1 0)) (Cert.Attn.Blocks.grow t r) r d (fun e => Cert.Attn.Blocks.iblk_q V c t r e)).trans ?_
  rw [hK, hV]
  rfl

/-- The output array after the last grid point. -/
theorem region1_arr (c : Dev nD) :
    (dat1 (F := Ideal) V c).arrAt 3 cfg1.N
      = Cert.Attn.kerArr (V c (Pipeline.arrRef spec1 0)) (V c (Pipeline.arrRef spec1 1)) (V c (Pipeline.arrRef spec1 2)) :=
  Cert.Attn.Blocks.arr_of_blocks V c _ (block_entry V c)

end Cert.Attn.Value

end
-- ==== Proof.RefValue.lean ====
/-
  The reference program's result, read at an index.

  The reference computes q = x·wq, k = x·wk, v = x·wv, the scale 1 / √1024, the scores (q·kᵀ)·scale, each row's maximum
  (a fold of max from -∞ over the row, then the maximum with -∞), the exponentials of the scores minus their row's
  maximum, each row's sum of them from 0, the quotients and their product with v.  Each stage is read here at
  coordinates, from the inside out: entry (i, e) of a product x·w is "proj x w i e", entry (i, j) of the scores is
  "score x wq wk i j", row i's maximum is "rowMax x wq wk i", and so on up to entry (i, d) of the result, "refOut".
  Every step is the stage's own reading at an index followed by the identification of the index it reads its operands
  at with the index built from the coordinates.
-/
import proofs.«151747_j26431228739710_2_alg».proof.Proof.Gen.ReferenceIdeal.Read
import proofs.«151747_j26431228739710_2_alg».proof.Proof.Spec

noncomputable section

namespace Cert.Attn.Ref

open Idealize.ShloMosaic Idealize.ShloMosaic.ValueIdx Cert.ReferenceIdeal Cert.ReferenceIdeal.Gen Cert.ReferenceIdeal.Read

/-- The 4096×1024 input as an array of extended reals. -/
abbrev XA : Type := (⟨S4096x1024, .f32⟩ : BufTy).Contents (Elt Ideal)
/-- A 1024×1024 weight as an array of extended reals. -/
abbrev WA : Type := (⟨S1024x1024, .f32⟩ : BufTy).Contents (Elt Ideal)

/-! ## The three products x·w -/

/-- Entry (i, e) of q = x·wq is the sum over the contracted coordinate. -/
theorem v0_apply (x : XA) (w : WA) (i : Fin 4096) (e : Fin 1024) :
    val_main_v0 (F := Ideal) x w (ix2 i e) = proj x w i e := by
  rw [val_main_v0_apply]
  unfold proj
  refine Finset.sum_congr rfl fun k _ => ?_
  have hl : lidx_main_v0 (ix2 i e) k = ix2 i k :=
    funext fun a => Fin.ext (by match a with | ⟨0, _⟩ => rfl | ⟨1, _⟩ => rfl)
  have hr : ridx_main_v0 (ix2 i e) k = ix2 k e :=
    funext fun a => Fin.ext (by match a with | ⟨0, _⟩ => rfl | ⟨1, _⟩ => rfl)
  rw [hl, hr]

/-- Entry (i, e) of k = x·wk. -/
theorem v1_apply (x : XA) (w : WA) (i : Fin 4096) (e : Fin 1024) :
    val_main_v1 (F := Ideal) x w (ix2 i e) = proj x w i e := by
  rw [val_main_v1_apply]
  unfold proj
  refine Finset.sum_congr rfl fun k _ => ?_
  have hl : lidx_main_v1 (ix2 i e) k = ix2 i k :=
    funext fun a => Fin.ext (by match a with | ⟨0, _⟩ => rfl | ⟨1, _⟩ => rfl)
  have hr : ridx_main_v1 (ix2 i e) k = ix2 k e :=
    funext fun a => Fin.ext (by match a with | ⟨0, _⟩ => rfl | ⟨1, _⟩ => rfl)
  rw [hl, hr]

/-- Entry (i, e) of v = x·wv. -/
theorem v2_apply (x : XA) (w : WA) (i : Fin 4096) (e : Fin 1024) :
    val_main_v2 (F := Ideal) x w (ix2 i e) = proj x w i e := by
  rw [val_main_v2_apply]
  unfold proj
  refine Finset.sum_congr rfl fun k _ => ?_
  have hl : lidx_main_v2 (ix2 i e) k = ix2 i k :=
    funext fun a => Fin.ext (by match a with | ⟨0, _⟩ => rfl | ⟨1, _⟩ => rfl)
  have hr : ridx_main_v2 (ix2 i e) k = ix2 k e :=
    funext fun a => Fin.ext (by match a with | ⟨0, _⟩ => rfl | ⟨1, _⟩ => rfl)
  rw [hl, hr]

/-! ## The scores -/

/-- The broadcast scale is 1 / √1024 at every index. -/
theorem v7_apply (a : S4096x4096.Idx) : val_main_v7 (F := Ideal) a = cref := by
  rw [val_main_v7_apply, val_main_v4_apply, val_main_cst_0_apply, val_main_v3_apply, val_main_cst_apply,
    Ideal.hostDivf_def, Ideal.hostUnary_sqrt_def, Ideal.ofBits_def, Ideal.ofBits_def]
  rfl

/-- Entry (i, j) of the scaled scores: the product of row i of q with row j of k (column j of the transpose), times
    the scale. -/
theorem v8_apply (x : XA) (wq wk : WA) (i j : Fin 4096) :
    val_main_v8 (F := Ideal) x wq wk (ix2 i j) = score x wq wk i j := by
  rw [val_main_v8_apply, Ideal.mulf_def, v7_apply, val_main_v6_apply]
  unfold score
  refine congrArg (· * cref) (Finset.sum_congr rfl fun k _ => ?_)
  have hl : lidx_main_v6 (ix2 i j) k = ix2 i k :=
    funext fun a => Fin.ext (by match a with | ⟨0, _⟩ => rfl | ⟨1, _⟩ => rfl)
  have hr : idx_main_v5 (ridx_main_v6 (ix2 i j) k) = ix2 j k :=
    funext fun a => Fin.ext (by match a with | ⟨0, _⟩ => rfl | ⟨1, _⟩ => rfl)
  rw [val_main_v5_apply, hl, hr, v0_apply, v1_apply]

/-! ## The row maximum -/

/-- Row i with column k put back on the reduced second axis is (i, k). -/
theorem lift_row (h : S4096x4096.Reduces [1] S4096) (i : Fin 4096) (k : Fin (S4096x4096.size 1)) :
    h.lift (ix1 i) k = ix2 i (⟨k.val, k.isLt⟩ : Fin 4096) := by
  funext c; apply Fin.ext
  fin_cases c <;> rfl

/-- Row i of the reduction with a maximum body: the fold of max from -∞ over the row's scores. -/
theorem v9_apply (x : XA) (wq wk : WA) (i : Fin 4096) :
    val_main_v9 (F := Ideal) x wq wk (ix1 i)
      = (Finset.univ : Finset (Fin 4096)).fold max (Ideal.ofBits .f32 0xFF800000#32) fun j => score x wq wk i j := by
  have h : S4096x4096.Reduces [1] S4096 := by decide
  unfold val_main_v9
  rw [Host.reduce_eq_fold_single FloatOps.maximumf _ _ reducesTo_S4096x4096_S4096_d1 h h_S_]
  have hf : (val_main_v8 (F := Ideal) x wq wk ∘ h.lift (ix1 i)) = fun j : Fin 4096 => score x wq wk i j :=
    funext fun k => (congrArg (val_main_v8 (F := Ideal) x wq wk) (lift_row h i k)).trans (v8_apply x wq wk i _)
  exact congrArg (fun f => Finset.fold max (Ideal.ofBits .f32 0xFF800000#32) f (Finset.univ : Finset (Fin 4096))) hf

/-- Row i's maximum: the maximum of -∞ and the fold. -/
theorem v11_apply (x : XA) (wq wk : WA) (i : Fin 4096) :
    val_main_v11 (F := Ideal) x wq wk (ix1 i) = rowMax x wq wk i := by
  rw [val_main_v11_apply, Ideal.maximumf_def, val_main_v10_apply, val_main_cst_2_apply, Ideal.ofBits_def, v9_apply]
  rfl

/-! ## The exponentials, their row sums and the quotients -/

/-- Entry (i, j) of the exponentials: the score minus its row's maximum, exponentiated. -/
theorem v15_apply (x : XA) (wq wk : WA) (i j : Fin 4096) :
    val_main_v15 (F := Ideal) x wq wk (ix2 i j) = expo x wq wk i j := by
  have h : idx_main_v12 (idx_main_v13 (ix2 i j)) = ix1 i :=
    funext fun a => Fin.ext (by match a with | ⟨0, _⟩ => rfl)
  rw [val_main_v15_apply, Ideal.hostUnary_exp_def, val_main_v14_apply, Ideal.subf_def, v8_apply, val_main_v13_apply,
    val_main_v12_apply, h, v11_apply]
  rfl

/-- Row i's sum of exponentials, from the zero word. -/
theorem v16_apply (x : XA) (wq wk : WA) (i : Fin 4096) :
    val_main_v16 (F := Ideal) x wq wk (ix1 i) = denom x wq wk i := by
  rw [val_main_v16_apply, val_main_cst_3_apply, Ideal.ofBits_def]
  unfold denom
  refine congrArg (_ + ·) (Finset.sum_congr rfl fun k _ => ?_)
  have h : idx_main_v16 (ix1 i) k = ix2 i k :=
    funext fun a => Fin.ext (by match a with | ⟨0, _⟩ => rfl | ⟨1, _⟩ => rfl)
  rw [h, v15_apply]

/-- Entry (i, j) of the quotients: the exponential over its row's sum. -/
theorem v19_apply (x : XA) (wq wk : WA) (i j : Fin 4096) :
    val_main_v19 (F := Ideal) x wq wk (ix2 i j) = Ideal.div (expo x wq wk i j) (denom x wq wk i) := by
  have h : idx_main_v17 (idx_main_v18 (ix2 i j)) = ix1 i :=
    funext fun a => Fin.ext (by match a with | ⟨0, _⟩ => rfl)
  rw [val_main_v19_apply, Ideal.hostDivf_def, v15_apply, val_main_v18_apply, val_main_v17_apply, h, v16_apply]

/-! ## The result -/

/-- Entry (i, d) of the reference's result: the sum over the keys j of the quotient at (i, j) times v at (j, d). -/
theorem ref_apply (x : (⟨Cert.ReferenceIdeal.S4096x1024, .f32⟩ : BufTy).Contents (Elt Ideal))
    (wq wk wv : (⟨Cert.ReferenceIdeal.S1024x1024, .f32⟩ : BufTy).Contents (Elt Ideal)) (i : Fin 4096) (d : Fin 1024) :
    Cert.ReferenceIdeal.Read.val_main_v20 (F := Ideal) x wq wk wv (ValueIdx.ix2 i d) = Cert.Attn.refOut x wq wk wv i d := by
  rw [val_main_v20_apply]
  unfold refOut
  refine Finset.sum_congr rfl fun k _ => ?_
  have hl : lidx_main_v20 (ix2 i d) k = ix2 i k :=
    funext fun a => Fin.ext (by match a with | ⟨0, _⟩ => rfl | ⟨1, _⟩ => rfl)
  have hr : ridx_main_v20 (ix2 i d) k = ix2 k d :=
    funext fun a => Fin.ext (by match a with | ⟨0, _⟩ => rfl | ⟨1, _⟩ => rfl)
  rw [hl, hr, v19_apply, v2_apply]

end Cert.Attn.Ref

end
-- ==== Proof.LibFiniteEntry.lean ====
/-
  The "every input is finite" precondition, read at one entry, on the extended reals.

  Such a precondition tests each float argument `x` by `all (|x| < +inf)`: elementwise `|x[i]| < inf` against the f32
  pattern `0x7F800000`, reduced by `and` to one bit. There `|a| = max a (-a)`, the pattern is `⊤`, and `max a (-a) < ⊤`
  excludes both `a = ⊤` and `a = ⊥`: the entry is a real number (`entry_real`, for an array of any shape, from its
  elementwise test being 1 at that entry; the reduction's bit gives that through `Host.reduce_andi_all`, which asks for
  the `Subsingleton` instance below). Also here: the f32 pattern of 1.0 is the real number 1 (`ofBits_one_real`).
-/
import Idealize.ShloMosaic.PureOps.Ideal
import Idealize.ShloMosaic.Lib.ReduceAll

noncomputable section

namespace Cert.Lib.FiniteEntry

open Idealize.ShloMosaic

/-- The scalar shape has one index. -/
instance : Subsingleton (⟨0, ![]⟩ : Shape).Idx := ⟨fun a b => funext fun d => d.elim0⟩

/-- The f32 pattern `0x7F800000` is `+inf`. -/
theorem ofBits_inf : Ideal.ofBits .f32 0x7F800000#32 = ⊤ := by
  simp [Ideal.ofBits, Ideal.ieee]

/-- The f32 pattern `0x3F800000` is the real number 1. -/
theorem ofBits_one_real : ∃ r : ℝ, Ideal.ofBits .f32 0x3F800000#32 = (r : EReal) :=
  ⟨1, by simp [Ideal.ofBits, Ideal.ieee, -EReal.coe_mul]; norm_num⟩

/-- An extended real whose absolute value is below `+inf` is a real number. -/
theorem real_of_abs_lt_inf (a : EReal) (h : Ideal.cmp .olt (max a (-a)) (Ideal.ofBits .f32 0x7F800000#32) = 1#1) :
    ∃ r : ℝ, a = (r : EReal) := by
  rw [ofBits_inf] at h
  induction a using EReal.rec with
  | bot => simp [Ideal.cmp] at h
  | coe r => exact ⟨r, rfl⟩
  | top => simp [Ideal.cmp] at h

/-- One argument's elementwise test `|x| < inf`, 1 at entry `i`: that entry is a real number. -/
theorem entry_real {s : Shape} (hb : (⟨0, ![]⟩ : Shape).BroadcastsInDim s (![] : Fin 0 → Fin s.rank)) (x : FVec Ideal s .f32)
    (i : s.Idx)
    (h : cmpf .olt (Host.absf x) (broadcastInDim s ![] hb (constant (F := Ideal) ⟨0, ![]⟩ .f32 0x7F800000#32)) i = 1#1) :
    ∃ r : ℝ, x i = (r : EReal) :=
  real_of_abs_lt_inf (x i) h

end Cert.Lib.FiniteEntry

end
-- ==== Proof.Finite.lean ====
/-
  The precondition read entry by entry: every entry of each of the four argument arrays is a real number.

  The precondition tests each argument by "all of |x| < +inf" and joins the four tests by "and".  Its value being 1
  gives each test's value 1, each reduction by "and" gives every elementwise bit 1, and an extended real whose
  absolute value is below +inf is a real number.
-/
import proofs.«151747_j26431228739710_2_alg».proof.Pre_finite_inputs
import proofs.«151747_j26431228739710_2_alg».proof.Proof.Gen.Pre_finite_inputs
import proofs.«151747_j26431228739710_2_alg».proof.Proof.LibFiniteEntry
import Idealize.ShloMosaic.Lib.ReduceAll
import Idealize.ShloMosaic.Lib.ValueIdx

noncomputable section

namespace Cert.Attn.Finite

open Idealize.ShloMosaic Cert.Pre_finite_inputs Cert.Lib.FiniteEntry

/-- All four arguments hold real numbers at every entry, when the precondition's value is 1. -/
theorem entries_real [Cert.Pre_finite_inputs.Facts]
    (x : FVec Ideal S4096x1024 .f32) (wq wk wv : FVec Ideal S1024x1024 .f32)
    (h : Cert.Pre_finite_inputs.fn (F := Ideal) x wq wk wv = fun _ => 1#1) :
    (∀ i, ∃ r : ℝ, x i = (r : EReal)) ∧ (∀ i, ∃ r : ℝ, wq i = (r : EReal))
      ∧ (∀ i, ∃ r : ℝ, wk i = (r : EReal)) ∧ (∀ i, ∃ r : ℝ, wv i = (r : EReal)) := by
  have h0 := congrFun h ValueIdx.ix0
  dsimp only [fn, fn_part1] at h0
  obtain ⟨h123, h4⟩ := IntOp.andi_eq_one.1 h0
  obtain ⟨h12, h3⟩ := IntOp.andi_eq_one.1 h123
  obtain ⟨h1, h2⟩ := IntOp.andi_eq_one.1 h12
  refine ⟨fun i => ?_, fun i => ?_, fun i => ?_, fun i => ?_⟩
  · exact entry_real _ x i (Host.reduce_andi_all _ _ _ _ _ h1 i)
  · exact entry_real _ wq i (Host.reduce_andi_all _ _ _ _ _ h2 i)
  · exact entry_real _ wk i (Host.reduce_andi_all _ _ _ _ _ h3 i)
  · exact entry_real _ wv i (Host.reduce_andi_all _ _ _ _ _ h4 i)

end Cert.Attn.Finite

end
-- ==== Proof.LibERealSum.lean ====
/-
  Finite sums of real numbers inside the extended reals.

  `coe_sum`: the coercion `ℝ → EReal` commutes with a finite sum (Mathlib states it for `+` and for `*`, not for `∑`).
  `lowrank_swap`: for real `s`, `u : ι → ℝ`, `B : ι → κ → ℝ`, `a : κ → ℝ` over finite index types,

      ∑ᵣ (s · ∑ₙ uₙ · Bₙᵣ) · aᵣ  =  ∑ₙ uₙ · (s · ∑ᵣ aᵣ · Bₙᵣ)        (as extended reals)

  — a vector pushed through a rank-κ factorization from either end. It is an identity of REAL numbers (distributivity and an
  exchange of two finite sums); on the extended reals it fails at the infinities, which is why it is stated over
  coercions.
-/
import Mathlib.Data.EReal.Operations
import Mathlib.Algebra.BigOperators.Ring.Finset
import Mathlib.Algebra.BigOperators.Group.Finset.Sigma
import Mathlib.Tactic.Ring

namespace Cert.Lib.ERealSum

/-- The coercion of a finite real sum is the sum of the coercions. -/
theorem coe_sum {ι : Type*} (S : Finset ι) (f : ι → ℝ) : ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

/-- `∑ᵣ (s · ∑ₙ uₙ·Bₙᵣ) · aᵣ = ∑ₙ uₙ · (s · ∑ᵣ aᵣ·Bₙᵣ)` on real numbers, read in the extended reals: both are
    `s · ∑ₙ ∑ᵣ uₙ·Bₙᵣ·aᵣ`, by distributivity and the exchange of the two finite sums. -/
theorem lowrank_swap {ι κ : Type*} [Fintype ι] [Fintype κ] (s : ℝ) (u : ι → ℝ) (Bm : ι → κ → ℝ) (a : κ → ℝ) :
    ∑ r, ((s : EReal) * ∑ n, (u n : EReal) * (Bm n r : EReal)) * (a r : EReal)
      = ∑ n, (u n : EReal) * ((s : EReal) * ∑ r, (a r : EReal) * (Bm n r : EReal)) := by
  simp only [← EReal.coe_mul, ← coe_sum]
  refine congrArg _ ?_
  simp only [Finset.mul_sum, Finset.sum_mul]
  rw [Finset.sum_comm]
  exact Finset.sum_congr rfl fun n _ => Finset.sum_congr rfl fun r _ => by ring

end Cert.Lib.ERealSum
-- ==== Proof.LibOnlineLse.lean ====
/-
  The online log-sum-exp: a maximum and a sum of exponentials carried block by block.

  For real numbers y j b (A blocks j of B entries b; A and B positive) a running pair (m, l) of extended reals
  starts at (⊥, 0) and, at block j, becomes

      m' = max m (cur j),      l' = exp (m - m') * l + (0 + ∑ b, exp (y j b - m')),

  where cur j is the fold of max from ⊥ over the block's entries. After the A blocks

      m = M := the maximum of all y j b,      l = S := ∑ j, ∑ b, Real.exp (y j b - M),

  both real numbers, S ≥ 1, and hence  m + log l = M + Real.log S,  the log-sum-exp of all the entries.
  (At the first block exp (⊥ - m') = 0 wipes the empty sum; afterwards the factor exp (M_old - M_new)
  re-bases the old sum on the new maximum: exp (M_old - M_new) * exp (y - M_old) = exp (y - M_new).)

  How the pieces are written, so that a term can be rewritten into this form:
  • a block's maximum is  `(Finset.univ : Finset (Fin B)).fold max ⊥ fun b => ((y j b : ℝ) : EReal)`  (`cur`) — the form in
    which the library reads a max-reduction over one axis from -∞; `fold_max_coe` / `cur_eq_coe` say it is the
    coercion of `Finset.sup'` (for any nonempty finite set of indices);
  • the operations are the extended reals' own `max`, `-`, `*`, `+` and the library's `Ideal.exp`, `Ideal.log`
    (what `maximumf_def`, `subf_def`, `mulf_def`, `addf_def`, `exp_def`, `log_def` rewrite the float operations to);
    used about them: `Ideal.exp_bot`, `Ideal.exp_coe`, `Ideal.log_coe`, `EReal.bot_sub`, `EReal.coe_sub`,
    `EReal.coe_mul`, `EReal.coe_add`, and the coercion of a finite sum;
  • `step y j (m, l)` is one block's update, `run y k` the pair after the first k blocks (`run_zero`, `run_succ`);
    `of_recurrence` identifies any two sequences that satisfy the recurrence with `run`.

  The results: `run_fst`, `run_snd`, `run_lse` (after all A blocks, against `Mtot` and `Stot`), `one_le_Stot`;
  and, for the entries of one row f : Fin n → ℝ cut into A blocks of B consecutive entries (n = A * B, entry
  b + B * j is entry b of block j), `Mtot_flat`, `Stot_flat` and `run_blocks_fst`, `run_blocks_snd`, `run_blocks_lse`:
  the pair ends at the row's maximum and at its sum of shifted exponentials.
-/
import Mathlib.Analysis.SpecialFunctions.Log.Basic
import Mathlib.Data.EReal.Operations
import Mathlib.Data.Finset.Lattice.Fold
import Mathlib.Algebra.Order.BigOperators.Group.Finset
import Idealize.ShloMosaic.PureOps.Ideal
import proofs.«151747_j26431228739710_2_alg».proof.Proof.LibERealSum
import proofs.«151747_j26431228739710_2_alg».proof.Proof.LibFoldBlocks

noncomputable section

namespace Cert.Lib.OnlineLse

open Idealize.ShloMosaic Finset

/-! ## A fold of max from ⊥ over real numbers -/

/-- The fold of `max` from `⊥` over a nonempty finite set of real numbers, taken in the extended reals, is their
    (real) maximum. -/
theorem fold_max_coe {ι : Type*} (s : Finset ι) (hs : s.Nonempty) (f : ι → ℝ) :
    s.fold max (⊥ : EReal) (fun i => ((f i : ℝ) : EReal)) = ((s.sup' hs f : ℝ) : EReal) := by
  change s.sup (fun i => ((f i : ℝ) : EReal)) = _
  apply le_antisymm
  · exact Finset.sup_le fun i hi => EReal.coe_le_coe_iff.2 (Finset.le_sup' f hi)
  · obtain ⟨i, hi, h⟩ := Finset.exists_mem_eq_sup' hs f
    rw [h]
    exact Finset.le_sup (f := fun i => ((f i : ℝ) : EReal)) hi

theorem coe_max (a b : ℝ) : ((max a b : ℝ) : EReal) = max (a : EReal) (b : EReal) :=
  Monotone.map_max EReal.coe_strictMono.monotone

variable {A B : ℕ}

/-! ## The recurrence -/

/-- The maximum of block `j`: the fold of `max` from `⊥` over its entries. -/
def cur (y : Fin A → Fin B → ℝ) (j : Fin A) : EReal :=
  (univ : Finset (Fin B)).fold max ⊥ fun b => ((y j b : ℝ) : EReal)

/-- One block's update of the running maximum and the running sum. -/
def step (y : Fin A → Fin B → ℝ) (j : Fin A) (s : EReal × EReal) : EReal × EReal :=
  (max s.1 (cur y j),
   Ideal.exp (s.1 - max s.1 (cur y j)) * s.2
     + (0 + ∑ b, Ideal.exp (((y j b : ℝ) : EReal) - max s.1 (cur y j))))

/-- The running pair after the first `k` blocks. -/
def run (y : Fin A → Fin B → ℝ) : ℕ → EReal × EReal
  | 0 => (⊥, 0)
  | k + 1 => if h : k < A then step y ⟨k, h⟩ (run y k) else run y k

@[simp] theorem run_zero (y : Fin A → Fin B → ℝ) : run y 0 = (⊥, 0) := rfl

theorem run_succ (y : Fin A → Fin B → ℝ) {k : ℕ} (h : k < A) : run y (k + 1) = step y ⟨k, h⟩ (run y k) :=
  dif_pos h

/-- Two sequences that satisfy the recurrence are the components of `run`. -/
theorem of_recurrence (y : Fin A → Fin B → ℝ) (m l : ℕ → EReal) (hm0 : m 0 = ⊥) (hl0 : l 0 = 0)
    (hm : ∀ (k : ℕ) (h : k < A), m (k + 1) = max (m k) (cur y ⟨k, h⟩))
    (hl : ∀ (k : ℕ) (h : k < A), l (k + 1) = Ideal.exp (m k - m (k + 1)) * l k
      + (0 + ∑ b, Ideal.exp (((y ⟨k, h⟩ b : ℝ) : EReal) - m (k + 1)))) :
    ∀ k, k ≤ A → (m k, l k) = run y k := by
  intro k
  induction k with
  | zero => intro _; rw [hm0, hl0]; rfl
  | succ k ih =>
    intro hk
    have hk' : k < A := hk
    have e := ih hk'.le
    rw [run_succ y hk', ← e, hl k hk', hm k hk']
    rfl

variable [NeZero B]

theorem cur_eq_coe (y : Fin A → Fin B → ℝ) (j : Fin A) :
    cur y j = (((univ : Finset (Fin B)).sup' univ_nonempty (y j) : ℝ) : EReal) :=
  fold_max_coe univ univ_nonempty (y j)

/-- The first block: from `(⊥, 0)` to the block's maximum and its sum of shifted exponentials. -/
theorem step_bot (y : Fin A → Fin B → ℝ) (j : Fin A) :
    step y j (⊥, 0) = ((((univ : Finset (Fin B)).sup' univ_nonempty (y j) : ℝ) : EReal),
      ((∑ b, Real.exp (y j b - (univ : Finset (Fin B)).sup' univ_nonempty (y j)) : ℝ) : EReal)) := by
  unfold step
  simp only [cur_eq_coe, bot_le, max_eq_right, EReal.bot_sub, Ideal.exp_bot, mul_zero, zero_add,
    ← EReal.coe_sub, Ideal.exp_coe, ← Cert.Lib.ERealSum.coe_sum]

/-- A later block: from real `(M, L)` to `(max M c, exp (M - max M c) * L + ∑ b, exp (y j b - max M c))`, `c` the block's maximum. -/
theorem step_coe (y : Fin A → Fin B → ℝ) (j : Fin A) (M L : ℝ) :
    step y j ((M : EReal), (L : EReal))
      = (((max M ((univ : Finset (Fin B)).sup' univ_nonempty (y j)) : ℝ) : EReal),
         ((Real.exp (M - max M ((univ : Finset (Fin B)).sup' univ_nonempty (y j))) * L
            + ∑ b, Real.exp (y j b - max M ((univ : Finset (Fin B)).sup' univ_nonempty (y j))) : ℝ) : EReal)) := by
  unfold step
  simp only [cur_eq_coe, ← coe_max, zero_add, ← EReal.coe_sub, Ideal.exp_coe, ← Cert.Lib.ERealSum.coe_sum,
    ← EReal.coe_mul, ← EReal.coe_add]

/-! ## The invariant -/

/-- The blocks before block `k`. -/
def before (A k : ℕ) : Finset (Fin A) := univ.filter fun i => i.val < k

theorem before_succ (j : Fin A) : before A (j.val + 1) = insert j (before A j.val) := by
  ext i; simp only [before, mem_filter, mem_univ, true_and, mem_insert, Fin.ext_iff]; omega

theorem not_mem_before (j : Fin A) : j ∉ before A j.val := by
  simp [before]

theorem before_zero : before A 0 = ∅ := by
  ext i; simp [before]

theorem before_all : before A A = univ := by
  ext i; simp [before]

/-- After `k ≥ 1` blocks the running maximum is the real maximum `Mk` of the entries seen so far and the running
    sum is the sum of their exponentials shifted by `Mk`. -/
def Inv (y : Fin A → Fin B → ℝ) (k : ℕ) (s : EReal × EReal) : Prop :=
  ∃ Mk : ℝ, (∀ i b, i.val < k → y i b ≤ Mk) ∧ (∃ i b, i.val < k ∧ y i b = Mk) ∧ s.1 = (Mk : EReal) ∧
    s.2 = ((∑ i ∈ before A k, ∑ b, Real.exp (y i b - Mk) : ℝ) : EReal)

/-- The invariant is established by the first block and kept by every later one. -/
theorem inv_succ (y : Fin A → Fin B → ℝ) (j : Fin A) (s : EReal × EReal)
    (h : (j.val = 0 ∧ s = (⊥, 0)) ∨ (0 < j.val ∧ Inv y j.val s)) : Inv y (j.val + 1) (step y j s) := by
  obtain ⟨bs, -, hbs⟩ := Finset.exists_mem_eq_sup' (univ_nonempty (α := Fin B)) (y j)
  rcases h with ⟨h0, rfl⟩ | ⟨_, Mk, hub, ⟨i0, b0, hi0, hb0⟩, hm, hl⟩
  · rw [step_bot]
    refine ⟨_, ?_, ⟨j, bs, Nat.lt_succ_self _, hbs.symm⟩, rfl, ?_⟩
    · intro i b hi
      have : i = j := Fin.ext (by omega)
      subst this
      exact Finset.le_sup' (y i) (mem_univ b)
    · rw [before_succ, Finset.sum_insert (not_mem_before j), h0, before_zero, Finset.sum_empty, add_zero]
  · obtain ⟨m, l⟩ := s
    simp only at hm hl
    subst hm hl
    rw [step_coe]
    set c := (univ : Finset (Fin B)).sup' univ_nonempty (y j) with hc
    refine ⟨max Mk c, ?_, ?_, rfl, ?_⟩
    · intro i b hi
      rcases Nat.lt_succ_iff_lt_or_eq.1 hi with hlt | heq
      · exact (hub i b hlt).trans (le_max_left _ _)
      · have : i = j := Fin.ext heq
        subst this
        exact (Finset.le_sup' (y i) (mem_univ b)).trans (le_max_right _ _)
    · rcases le_total c Mk with hle | hle
      · exact ⟨i0, b0, Nat.lt_succ_of_lt hi0, by rw [hb0, max_eq_left hle]⟩
      · exact ⟨j, bs, Nat.lt_succ_self _, by rw [max_eq_right hle, hbs]⟩
    · have key : ∀ i : Fin A, Real.exp (Mk - max Mk c) * ∑ b, Real.exp (y i b - Mk)
          = ∑ b, Real.exp (y i b - max Mk c) := by
        intro i
        rw [Finset.mul_sum]
        refine Finset.sum_congr rfl fun b _ => ?_
        rw [← Real.exp_add]
        congr 1
        ring
      congr 1
      rw [before_succ, Finset.sum_insert (not_mem_before j), Finset.mul_sum,
        Finset.sum_congr rfl (fun i _ => key i), add_comm]

/-- The running pair: `(⊥, 0)` before the first block, the invariant after `k ≥ 1` blocks. -/
theorem run_inv (y : Fin A → Fin B → ℝ) :
    ∀ k, k ≤ A → (k = 0 ∧ run y k = (⊥, 0)) ∨ (0 < k ∧ Inv y k (run y k)) := by
  intro k
  induction k with
  | zero => intro _; exact Or.inl ⟨rfl, rfl⟩
  | succ k ih =>
    intro hk
    have hk' : k < A := hk
    rw [run_succ y hk']
    exact Or.inr ⟨Nat.succ_pos k, inv_succ y ⟨k, hk'⟩ (run y k) (ih hk'.le)⟩

/-! ## After the last block -/

variable [NeZero A]

/-- The maximum of all the entries. -/
def Mtot (y : Fin A → Fin B → ℝ) : ℝ :=
  (univ : Finset (Fin A × Fin B)).sup' univ_nonempty fun p => y p.1 p.2

/-- The sum of the exponentials of all the entries, shifted by their maximum. -/
def Stot (y : Fin A → Fin B → ℝ) : ℝ := ∑ j, ∑ b, Real.exp (y j b - Mtot y)

theorem le_Mtot (y : Fin A → Fin B → ℝ) (j : Fin A) (b : Fin B) : y j b ≤ Mtot y :=
  Finset.le_sup' (fun p : Fin A × Fin B => y p.1 p.2) (mem_univ (j, b))

theorem exists_eq_Mtot (y : Fin A → Fin B → ℝ) : ∃ j b, y j b = Mtot y := by
  obtain ⟨p, -, hp⟩ := Finset.exists_mem_eq_sup' (univ_nonempty (α := Fin A × Fin B)) fun p => y p.1 p.2
  exact ⟨p.1, p.2, hp.symm⟩

/-- The sum of shifted exponentials is at least 1: the term of a largest entry is `exp 0`. -/
theorem one_le_Stot (y : Fin A → Fin B → ℝ) : 1 ≤ Stot y := by
  obtain ⟨j, b, h⟩ := exists_eq_Mtot y
  have h1 : Real.exp (y j b - Mtot y) = 1 := by rw [h, sub_self, Real.exp_zero]
  calc (1 : ℝ) = Real.exp (y j b - Mtot y) := h1.symm
    _ ≤ ∑ b', Real.exp (y j b' - Mtot y) :=
        Finset.single_le_sum (f := fun b' => Real.exp (y j b' - Mtot y)) (fun _ _ => (Real.exp_pos _).le) (mem_univ b)
    _ ≤ Stot y :=
        Finset.single_le_sum (f := fun j' => ∑ b', Real.exp (y j' b' - Mtot y))
          (fun _ _ => Finset.sum_nonneg fun _ _ => (Real.exp_pos _).le) (mem_univ j)

theorem Stot_pos (y : Fin A → Fin B → ℝ) : 0 < Stot y := lt_of_lt_of_le one_pos (one_le_Stot y)

/-- After all `A` blocks: the running maximum is the maximum of all entries, the running sum their sum of shifted
    exponentials. -/
theorem run_final (y : Fin A → Fin B → ℝ) : run y A = ((Mtot y : EReal), (Stot y : EReal)) := by
  rcases run_inv y A le_rfl with ⟨h0, -⟩ | ⟨_, Mk, hub, ⟨i0, b0, _, hb0⟩, hm, hl⟩
  · exact absurd h0 (NeZero.ne A)
  · have hM : Mk = Mtot y := le_antisymm (hb0 ▸ le_Mtot y i0 b0)
      (Finset.sup'_le _ _ fun p _ => hub p.1 p.2 p.1.isLt)
    rw [before_all, hM] at hl
    rw [hM] at hm
    exact Prod.ext hm hl

theorem run_fst (y : Fin A → Fin B → ℝ) : (run y A).1 = (Mtot y : EReal) := by rw [run_final]

theorem run_snd (y : Fin A → Fin B → ℝ) : (run y A).2 = (Stot y : EReal) := by rw [run_final]

/-- The logarithm of the final sum is the real logarithm. -/
theorem log_Stot (y : Fin A → Fin B → ℝ) : Ideal.log (Stot y : EReal) = ((Real.log (Stot y) : ℝ) : EReal) := by
  rw [Ideal.log_coe, if_neg (not_le.2 (Stot_pos y))]

/-- The final maximum plus the logarithm of the final sum is the log-sum-exp of all the entries. -/
theorem run_lse (y : Fin A → Fin B → ℝ) :
    (run y A).1 + Ideal.log (run y A).2 = ((Mtot y + Real.log (Stot y) : ℝ) : EReal) := by
  rw [run_final, log_Stot, EReal.coe_add]

/-! ## One row cut into blocks -/

section Flat

variable {A B n : ℕ} [NeZero A] [NeZero B]

/-- The maximum over the blocks' entries is the maximum over the row. -/
theorem Mtot_flat (e : Fin A × Fin B ≃ Fin n) (f : Fin n → ℝ) (hne : (univ : Finset (Fin n)).Nonempty) :
    Mtot (fun j b => f (e (j, b))) = (univ : Finset (Fin n)).sup' hne f := by
  apply le_antisymm
  · exact Finset.sup'_le _ _ fun p _ => Finset.le_sup' f (mem_univ (e (p.1, p.2)))
  · refine Finset.sup'_le _ _ fun s _ => ?_
    have h := le_Mtot (fun j b => f (e (j, b))) (e.symm s).1 (e.symm s).2
    simpa using h

/-- The sum over the blocks' entries of the shifted exponentials is the sum over the row. -/
theorem Stot_flat (e : Fin A × Fin B ≃ Fin n) (f : Fin n → ℝ) (hne : (univ : Finset (Fin n)).Nonempty) :
    Stot (fun j b => f (e (j, b))) = ∑ s, Real.exp (f s - (univ : Finset (Fin n)).sup' hne f) := by
  unfold Stot
  rw [Mtot_flat e f hne, ← Equiv.sum_comp e fun s => Real.exp (f s - (univ : Finset (Fin n)).sup' hne f),
    Fintype.sum_prod_type]

/-- An index whose value is `b + B * j` is entry `b` of block `j`. -/
theorem eq_blockEquiv (hn : A * B = n) (j : Fin A) (b : Fin B) (s : Fin n) (hs : s.val = b.val + B * j.val) :
    s = Cert.FoldBlocks.blockEquiv hn (j, b) :=
  Fin.ext (hs.trans (Cert.FoldBlocks.blockEquiv_val hn j b).symm)

variable (hn : A * B = n) (f : Fin n → ℝ) (hne : (univ : Finset (Fin n)).Nonempty)

/-- Over a row of `n = A * B` entries taken in `A` blocks of `B` consecutive entries, the running maximum ends at the
    row's maximum … -/
theorem run_blocks_fst :
    (run (fun j b => f (Cert.FoldBlocks.blockEquiv hn (j, b))) A).1 = (((univ : Finset (Fin n)).sup' hne f : ℝ) : EReal) := by
  rw [run_fst, Mtot_flat _ f hne]

/-- … the running sum at the row's sum of exponentials shifted by its maximum … -/
theorem run_blocks_snd :
    (run (fun j b => f (Cert.FoldBlocks.blockEquiv hn (j, b))) A).2
      = ((∑ s, Real.exp (f s - (univ : Finset (Fin n)).sup' hne f) : ℝ) : EReal) := by
  rw [run_snd, Stot_flat _ f hne]

/-- … and the final maximum plus the logarithm of the final sum at the row's log-sum-exp. -/
theorem run_blocks_lse :
    (run (fun j b => f (Cert.FoldBlocks.blockEquiv hn (j, b))) A).1
        + Ideal.log (run (fun j b => f (Cert.FoldBlocks.blockEquiv hn (j, b))) A).2
      = (((univ : Finset (Fin n)).sup' hne f
          + Real.log (∑ s, Real.exp (f s - (univ : Finset (Fin n)).sup' hne f)) : ℝ) : EReal) := by
  rw [run_lse, Mtot_flat _ f hne, Stot_flat _ f hne]

/-- The row's sum of shifted exponentials is at least 1. -/
theorem one_le_sum_exp : 1 ≤ ∑ s, Real.exp (f s - (univ : Finset (Fin n)).sup' hne f) := by
  obtain ⟨s, -, hs⟩ := Finset.exists_mem_eq_sup' hne f
  have h1 : Real.exp (f s - (univ : Finset (Fin n)).sup' hne f) = 1 := by rw [hs, sub_self, Real.exp_zero]
  rw [← h1]
  exact Finset.single_le_sum (f := fun s' => Real.exp (f s' - (univ : Finset (Fin n)).sup' hne f))
    (fun _ _ => (Real.exp_pos _).le) (mem_univ s)

end Flat

end Cert.Lib.OnlineLse
-- ==== Proof.LibOnlineAttn.lean ====
/-
  The online softmax-weighted sum: the numerator carried beside the online log-sum-exp's maximum and sum.

  For real scores y j b and real values u j b (A blocks j of B entries b; A and B positive) the online log-sum-exp carries
  a running maximum m and a running sum l of shifted exponentials (the module this one imports: `run y k` is the pair
  after the first k blocks). Beside them a third quantity a, the NUMERATOR of the softmax-weighted sum of the values,
  starts at 0 and, at block j, from the maximum m before the block, becomes

      a' = exp (m - m') * a + ∑ b, exp (y j b - m') * u j b,        m' = max m (cur j),

  where cur j is the block's maximum (the fold of max from ⊥ over its entries). After the A blocks

      a = ∑ j, ∑ b, Real.exp (y j b - M) * u j b,        M := the maximum of all y j b,

  a real number; divided by the final sum l = S = ∑ j, ∑ b, Real.exp (y j b - M) it is the softmax-weighted sum
  ∑ (exp (y - M) / S) * u of the values.
  (Before the first block m = ⊥ and exp (⊥ - m') = 0 wipes the empty numerator; afterwards the factor
  exp (M_old - M_new) re-bases the old numerator on the new maximum: exp (M_old - M_new) * exp (y - M_old) = exp (y - M_new).
  This last identity does not use that M_new is the larger of the two.)

  The pieces: `stepAcc y u j m a` is one block's update, `acc y u k` the numerator after the first k blocks
  (`acc_zero`, `acc_succ`); `acc_of_recurrence` identifies any sequence that satisfies the recurrence (beside two that
  satisfy the log-sum-exp's) with `acc`. The results: `acc_final` (after all A blocks), `acc_blocks` (for one row
  f : Fin n → ℝ of scores with values g : Fin n → ℝ, cut into A blocks of B consecutive entries, n = A * B), and
  `div_sum` (the quotient of a finite weighted sum by a nonzero real, entry by entry, on the extended reals).
-/
import proofs.«151747_j26431228739710_2_alg».proof.Proof.LibOnlineLse

noncomputable section

namespace Cert.Lib.OnlineAttn

open Cert.Lib.OnlineLse Idealize.ShloMosaic Finset

variable {A B : ℕ}

/-! ## The recurrence -/

/-- The numerator's update at block j, from the running maximum m before the block and the numerator a. -/
def stepAcc (y u : Fin A → Fin B → ℝ) (j : Fin A) (m a : EReal) : EReal :=
  Ideal.exp (m - max m (cur y j)) * a
    + ∑ b, Ideal.exp (((y j b : ℝ) : EReal) - max m (cur y j)) * ((u j b : ℝ) : EReal)

/-- The numerator after the first k blocks, beside `run y`. -/
def acc (y u : Fin A → Fin B → ℝ) : ℕ → EReal
  | 0 => 0
  | k + 1 => if h : k < A then stepAcc y u ⟨k, h⟩ (run y k).1 (acc y u k) else acc y u k

/-- Before the first block the numerator is 0. -/
theorem acc_zero (y u : Fin A → Fin B → ℝ) : acc y u 0 = 0 := rfl

/-- One more block: the numerator's update from the running maximum before the block. -/
theorem acc_succ (y u : Fin A → Fin B → ℝ) {k : ℕ} (h : k < A) :
    acc y u (k + 1) = stepAcc y u ⟨k, h⟩ (run y k).1 (acc y u k) :=
  dif_pos h

/-- Any sequence satisfying the numerator's recurrence beside sequences (m, l) that satisfy the online
    log-sum-exp's is `acc`. -/
theorem acc_of_recurrence (y u : Fin A → Fin B → ℝ) (m l a : ℕ → EReal) (hm0 : m 0 = ⊥) (hl0 : l 0 = 0) (ha0 : a 0 = 0)
    (hm : ∀ (k : ℕ) (h : k < A), m (k + 1) = max (m k) (cur y ⟨k, h⟩))
    (hl : ∀ (k : ℕ) (h : k < A), l (k + 1) = Ideal.exp (m k - m (k + 1)) * l k
      + (0 + ∑ b, Ideal.exp (((y ⟨k, h⟩ b : ℝ) : EReal) - m (k + 1))))
    (ha : ∀ (k : ℕ) (h : k < A), a (k + 1) = Ideal.exp (m k - m (k + 1)) * a k
      + ∑ b, Ideal.exp (((y ⟨k, h⟩ b : ℝ) : EReal) - m (k + 1)) * ((u ⟨k, h⟩ b : ℝ) : EReal)) :
    ∀ k, k ≤ A → a k = acc y u k := by
  have hrun := of_recurrence y m l hm0 hl0 hm hl
  intro k
  induction k with
  | zero => intro _; rw [ha0]; rfl
  | succ k ih =>
    intro hk
    have hk' : k < A := hk
    have e := ih hk'.le
    have em : m k = (run y k).1 := congrArg Prod.fst (hrun k hk'.le)
    rw [acc_succ y u hk', ha k hk', hm k hk', e, em]
    rfl

/-! ## One block on real numbers -/

/-- The first block: from the maximum ⊥ and the numerator 0, when the new maximum is the real M'. -/
private theorem stepAcc_bot [NeZero B] (y u : Fin A → Fin B → ℝ) (j : Fin A) (M' : ℝ)
    (hM : max (⊥ : EReal) (cur y j) = (M' : EReal)) :
    stepAcc y u j ⊥ 0 = ((∑ b, Real.exp (y j b - M') * u j b : ℝ) : EReal) := by
  unfold stepAcc
  rw [hM]
  simp only [mul_zero, zero_add, ← EReal.coe_sub, Ideal.exp_coe, ← EReal.coe_mul, ← Cert.Lib.ERealSum.coe_sum]

/-- A later block: from a real maximum M and a real numerator S, when the new maximum is the real M'. -/
private theorem stepAcc_coe [NeZero B] (y u : Fin A → Fin B → ℝ) (j : Fin A) (M M' S : ℝ)
    (hM : max (M : EReal) (cur y j) = (M' : EReal)) :
    stepAcc y u j (M : EReal) (S : EReal)
      = ((Real.exp (M - M') * S + ∑ b, Real.exp (y j b - M') * u j b : ℝ) : EReal) := by
  unfold stepAcc
  rw [hM]
  simp only [← EReal.coe_sub, Ideal.exp_coe, ← EReal.coe_mul, ← Cert.Lib.ERealSum.coe_sum, ← EReal.coe_add]

/-- Re-basing a weighted sum of shifted exponentials: exp (M - M') * exp (y - M) = exp (y - M'). -/
private theorem rebase (y u : Fin A → Fin B → ℝ) (s : Finset (Fin A)) (M M' : ℝ) :
    Real.exp (M - M') * ∑ i ∈ s, ∑ b, Real.exp (y i b - M) * u i b
      = ∑ i ∈ s, ∑ b, Real.exp (y i b - M') * u i b := by
  rw [Finset.mul_sum]
  refine Finset.sum_congr rfl fun i _ => ?_
  rw [Finset.mul_sum]
  refine Finset.sum_congr rfl fun b _ => ?_
  rw [← mul_assoc, ← Real.exp_add]
  congr 2
  ring

/-! ## The invariant -/

/-- After k ≥ 1 blocks, beside the running maximum ↑Mk, the numerator is the sum over the blocks seen so far of the
    values weighted by the exponentials shifted by Mk. -/
private theorem acc_inv [NeZero B] (y u : Fin A → Fin B → ℝ) :
    ∀ k, k ≤ A → 0 < k → ∀ Mk : ℝ, (run y k).1 = (Mk : EReal) →
      acc y u k = ((∑ i ∈ before A k, ∑ b, Real.exp (y i b - Mk) * u i b : ℝ) : EReal) := by
  intro k
  induction k with
  | zero => intro _ h; exact absurd h (lt_irrefl 0)
  | succ k ih =>
    intro hk _ M' hM'
    have hk' : k < A := hk
    rw [run_succ y hk'] at hM'
    have hM'' : max (run y k).1 (cur y ⟨k, hk'⟩) = (M' : EReal) := hM'
    have hb : before A (k + 1) = insert (⟨k, hk'⟩ : Fin A) (before A k) := before_succ ⟨k, hk'⟩
    have hnm : (⟨k, hk'⟩ : Fin A) ∉ before A k := not_mem_before ⟨k, hk'⟩
    rw [acc_succ y u hk', hb, Finset.sum_insert hnm]
    rcases run_inv y k hk'.le with ⟨h0, _⟩ | ⟨hpos, Mk, _, _, hm, _⟩
    · subst h0
      rw [before_zero, Finset.sum_empty, add_zero]
      exact stepAcc_bot y u ⟨0, hk'⟩ M' hM''
    · rw [ih hk'.le hpos Mk hm, hm]
      rw [hm] at hM''
      rw [stepAcc_coe y u ⟨k, hk'⟩ Mk M' _ hM'', rebase, add_comm]

/-! ## After the last block -/

/-- After all A blocks the numerator is the sum of the values weighted by the exponentials shifted by the global
    maximum. -/
theorem acc_final [NeZero A] [NeZero B] (y u : Fin A → Fin B → ℝ) :
    acc y u A = ((∑ j, ∑ b, Real.exp (y j b - Mtot y) * u j b : ℝ) : EReal) := by
  have h := acc_inv y u A le_rfl (Nat.pos_of_ne_zero (NeZero.ne A)) (Mtot y) (run_fst y)
  rw [before_all] at h
  exact h

/-! ## One row cut into blocks -/

/-- One row f of n = A * B scores with values g, taken in A blocks of B consecutive entries. -/
theorem acc_blocks {n : ℕ} [NeZero A] [NeZero B] (hn : A * B = n) (f g : Fin n → ℝ) (hne : (univ : Finset (Fin n)).Nonempty) :
    acc (fun j b => f (Cert.FoldBlocks.blockEquiv hn (j, b))) (fun j b => g (Cert.FoldBlocks.blockEquiv hn (j, b))) A
      = ((∑ s, Real.exp (f s - (univ : Finset (Fin n)).sup' hne f) * g s : ℝ) : EReal) := by
  rw [acc_final, Mtot_flat _ f hne,
    ← Equiv.sum_comp (Cert.FoldBlocks.blockEquiv hn)
      fun s => Real.exp (f s - (univ : Finset (Fin n)).sup' hne f) * g s,
    Fintype.sum_prod_type]

/-! ## The quotient -/

/-- A quotient of a weighted sum by a nonzero real is the sum of the weights' quotients times the values, on the
    extended reals. -/
theorem div_sum {ι : Type*} [Fintype ι] (e g : ι → ℝ) (S : ℝ) (hS : S ≠ 0) :
    Ideal.div ((∑ s, e s * g s : ℝ) : EReal) (S : EReal)
      = ∑ s, Ideal.div ((e s : ℝ) : EReal) (S : EReal) * ((g s : ℝ) : EReal) := by
  simp only [Ideal.div_coe hS, ← EReal.coe_mul, ← Cert.Lib.ERealSum.coe_sum]
  refine congrArg _ ?_
  rw [Finset.sum_mul]
  exact Finset.sum_congr rfl fun s _ => by ring

end Cert.Lib.OnlineAttn
-- ==== Proof.Bridge.lean ====
/-
  The blockwise (online) attention row equals the reference's softmax-weighted row, on the extended reals.

  All four inputs hold real numbers: x = ↑X, wq = ↑Wq, wk = ↑Wk, wv = ↑Wv. Then every entry of a product x·w is the real
  number P X W i d = ∑ e, X i e · W e d. The two scales are the same real number 1/32: the word 0x3D000000 is 2⁻⁵, and
  1 / √1024 = 1 / 32 (the words 0x3F800000 and 0x44800000 are 1 and 1024 = 32²). So for query row i the reference's
  score against key j and the kernel's score against key b of block t (key b + 1024·t) are both the real number

      f j = (∑ e, Q i e · K j e) · (1/32),     Q = P X Wq,  K = P X Wk,

  the kernel's because ∑ e, (Q i e · (1/32)) · K j e is the same real sum.

  The reference: its row maximum is M = max_j f j (a real number: the word 0xFF800000 is -∞ and the fold of max from -∞
  over the 4096 real scores is their maximum), its exponentials are exp (f j − M), their sum from the zero word is the
  real S = ∑ j, exp (f j − M) ≥ 1, and its result at column d is

      ∑ j, (exp (f j − M) / S) · V j d  =  (∑ j, exp (f j − M) · V j d) / S =: N / S,     V = P X Wv,

  the division by the nonzero real S being the product with 1/S on the extended reals.

  The kernel: the triple it carries over the 4 blocks of 1024 keys is, component by component, the online
  log-sum-exp's pair (m, l) and the online numerator a of the scores y t b = f (key t b) and values u t b = V (key t b) d
  (one block's update is literally theirs); after the 4 blocks l = S and a = N, and it returns a / l = N / S.
-/
import proofs.«151747_j26431228739710_2_alg».proof.Proof.Spec
import proofs.«151747_j26431228739710_2_alg».proof.Proof.LibOnlineAttn
import proofs.«151747_j26431228739710_2_alg».proof.Proof.LibFiniteEntry

noncomputable section

namespace Cert.Attn.Bridge

open Idealize.ShloMosaic Idealize.ShloMosaic.ValueIdx Finset

/-! ## The constants -/

/-- The f32 word 0x3D000000 is 2⁻⁵ = 1/32. -/
theorem c32_eq : c32 = ((1 / 32 : ℝ) : EReal) := by
  unfold c32
  simp [Ideal.ofBits, Ideal.ieee, -EReal.coe_mul]; norm_num

/-- The f32 word 0x3F800000 is 1. -/
theorem word_one : Ideal.ofBits .f32 0x3F800000#32 = ((1 : ℝ) : EReal) := by
  simp [Ideal.ofBits, Ideal.ieee, -EReal.coe_mul]; norm_num

/-- The f32 word 0x44800000 is 1024. -/
theorem word_1024 : Ideal.ofBits .f32 0x44800000#32 = ((1024 : ℝ) : EReal) := by
  simp [Ideal.ofBits, Ideal.ieee, -EReal.coe_mul]; norm_num

/-- The f32 zero word is 0. -/
theorem word_zero : Ideal.ofBits .f32 0x00000000#32 = (0 : EReal) := by
  simp [Ideal.ofBits, Ideal.ieee]

/-- The reference's scale 1 / √1024 is 1/32 as well: √1024 = 32. -/
theorem cref_eq : cref = ((1 / 32 : ℝ) : EReal) := by
  have h : Real.sqrt 1024 = 32 := by
    rw [show (1024 : ℝ) = 32 ^ 2 by norm_num]
    exact Real.sqrt_sq (by norm_num)
  unfold cref
  rw [word_one, word_1024, Ideal.sqrt_coe, if_neg (by norm_num), h,
    Ideal.div_coe (by norm_num : (32 : ℝ) ≠ 0), ← EReal.coe_mul, one_mul]

/-! ## The products -/

/-- A real array read in the extended reals. -/
abbrev up {s : Shape} (X : s.Idx → ℝ) : s.Idx → EReal := fun j => ((X j : ℝ) : EReal)

/-- Entry (i, d) of the real product X·W. -/
def P (X : SX.Idx → ℝ) (W : SW.Idx → ℝ) (i : Fin 4096) (d : Fin 1024) : ℝ :=
  ∑ e : Fin 1024, X (ix2 i e) * W (ix2 e d)

theorem row_ix2 (i : Fin 4096) (e : Fin 1024) : row (ix2 i e) = i := rfl

theorem col_ix2 (i : Fin 4096) (e : Fin 1024) : col (ix2 i e) = e := rfl

variable (X : SX.Idx → ℝ) (Wq Wk Wv : SW.Idx → ℝ) (i : Fin 4096) (d : Fin 1024)

/-- A product of real arrays is real, entry by entry. -/
theorem proj_coe (W : SW.Idx → ℝ) (i : Fin 4096) (d : Fin 1024) : proj (up X) (up W) i d = ((P X W i d : ℝ) : EReal) := by
  unfold proj P
  simp only [up, ← EReal.coe_mul, ← Lib.ERealSum.coe_sum]

theorem plainArr_coe (W : SW.Idx → ℝ) (i : Fin 4096) (e : Fin 1024) :
    plainArr (up X) (up W) (ix2 i e) = ((P X W i e : ℝ) : EReal) := by
  show proj (up X) (up W) (row (ix2 i e)) (col (ix2 i e)) = _
  rw [row_ix2, col_ix2, proj_coe]

theorem qArr_coe (W : SW.Idx → ℝ) (i : Fin 4096) (e : Fin 1024) :
    qArr (up X) (up W) (ix2 i e) = ((P X W i e * (1 / 32) : ℝ) : EReal) := by
  show proj (up X) (up W) (row (ix2 i e)) (col (ix2 i e)) * c32 = _
  rw [row_ix2, col_ix2, proj_coe, c32_eq, ← EReal.coe_mul]

/-! ## The scores -/

/-- The score of query i against key j: (∑ e, Q i e · K j e) · (1/32). -/
def f (j : Fin 4096) : ℝ := (∑ e : Fin 1024, P X Wq i e * P X Wk j e) * (1 / 32)

/-- The reference's score is the real f j. -/
theorem score_coe (j : Fin 4096) : score (up X) (up Wq) (up Wk) i j = ((f X Wq Wk i j : ℝ) : EReal) := by
  unfold score f
  rw [cref_eq]
  simp only [proj_coe, ← EReal.coe_mul, ← Lib.ERealSum.coe_sum]

/-- The kernel's score, from the scaled q, is the same real number: ∑ e, (Q i e · (1/32)) · K j e = f j. -/
theorem kscore_coe (t : Fin 4) (b : Fin 1024) :
    kscore (qArr (up X) (up Wq)) (plainArr (up X) (up Wk)) i t b = ((f X Wq Wk i (key t b) : ℝ) : EReal) := by
  unfold kscore f
  simp only [qArr_coe, plainArr_coe, ← EReal.coe_mul, ← Lib.ERealSum.coe_sum]
  refine congrArg _ ?_
  rw [Finset.sum_mul]
  exact Finset.sum_congr rfl fun e _ => by ring

/-! ## The reference -/

/-- The row's maximum score. -/
def M : ℝ := (univ : Finset (Fin 4096)).sup' univ_nonempty (f X Wq Wk i)

/-- The row's sum of shifted exponentials. -/
def S : ℝ := ∑ j : Fin 4096, Real.exp (f X Wq Wk i j - M X Wq Wk i)

/-- The row's numerator at column d. -/
def N : ℝ := ∑ j : Fin 4096, Real.exp (f X Wq Wk i j - M X Wq Wk i) * P X Wv j d

theorem rowMax_coe : rowMax (up X) (up Wq) (up Wk) i = ((M X Wq Wk i : ℝ) : EReal) := by
  unfold rowMax M
  rw [FoldBlocks.negInf_eq_bot]
  simp only [score_coe]
  rw [Lib.OnlineLse.fold_max_coe univ univ_nonempty (f X Wq Wk i)]
  exact max_eq_right bot_le

theorem expo_coe (j : Fin 4096) :
    expo (up X) (up Wq) (up Wk) i j = ((Real.exp (f X Wq Wk i j - M X Wq Wk i) : ℝ) : EReal) := by
  unfold expo
  rw [score_coe, rowMax_coe, ← EReal.coe_sub, Ideal.exp_coe]

theorem denom_coe : denom (up X) (up Wq) (up Wk) i = ((S X Wq Wk i : ℝ) : EReal) := by
  unfold denom S
  rw [word_zero, zero_add]
  simp only [expo_coe, ← Lib.ERealSum.coe_sum]

/-- The sum of shifted exponentials is positive: the term of a largest score is 1. -/
theorem S_pos : 0 < S X Wq Wk i :=
  lt_of_lt_of_le one_pos (Lib.OnlineLse.one_le_sum_exp (f X Wq Wk i) univ_nonempty)

/-- The reference's result is N / S. -/
theorem refOut_coe :
    refOut (up X) (up Wq) (up Wk) (up Wv) i d
      = Ideal.div ((N X Wq Wk Wv i d : ℝ) : EReal) ((S X Wq Wk i : ℝ) : EReal) := by
  unfold refOut
  simp only [expo_coe, denom_coe, proj_coe]
  exact (Lib.OnlineAttn.div_sum (fun j => Real.exp (f X Wq Wk i j - M X Wq Wk i)) (fun j => P X Wv j d)
    (S X Wq Wk i) (S_pos X Wq Wk i).ne').symm

/-! ## The kernel -/

theorem h4 : 4 * 1024 = 4096 := rfl

/-- Key b of block t is entry b + 1024·t of the row. -/
theorem key_eq (t : Fin 4) (b : Fin 1024) : FoldBlocks.blockEquiv h4 (t, b) = key t b :=
  Fin.ext (FoldBlocks.blockEquiv_val h4 t b)

section Run

variable (q k v : SX.Idx → EReal) (y u : Fin 4 → Fin 1024 → ℝ)
  (hs : ∀ t b, kscore q k i t b = ((y t b : ℝ) : EReal))
  (hv : ∀ t b, v (ix2 (key t b) d) = ((u t b : ℝ) : EReal))

theorem krun_succ {n : ℕ} (h : n < 4) :
    krun q k v i d (n + 1) = kstep q k v i d ⟨n, h⟩ (krun q k v i d n) :=
  dif_pos h

include hs hv in
/-- One block's update of the triple is the online log-sum-exp's update of (m, l) and the online numerator's of a. -/
theorem kstep_eq (t : Fin 4) (s : EReal × EReal × EReal) :
    kstep q k v i d t s
      = ((Lib.OnlineLse.step y t (s.1, s.2.1)).1, (Lib.OnlineLse.step y t (s.1, s.2.1)).2,
         Lib.OnlineAttn.stepAcc y u t s.1 s.2.2) := by
  unfold kstep Lib.OnlineLse.step Lib.OnlineAttn.stepAcc Lib.OnlineLse.cur
  simp only [hs, hv]

include hs hv in
/-- The triple after n blocks is the online pair and the online numerator after n blocks. -/
theorem krun_eq : ∀ n, n ≤ 4 →
    krun q k v i d n = ((Lib.OnlineLse.run y n).1, (Lib.OnlineLse.run y n).2, Lib.OnlineAttn.acc y u n) := by
  intro n
  induction n with
  | zero => intro _; rfl
  | succ n ih =>
    intro hn
    have h : n < 4 := hn
    rw [krun_succ i d q k v h, ih h.le, kstep_eq i d q k v y u hs hv, Lib.OnlineLse.run_succ y h,
      Lib.OnlineAttn.acc_succ y u h]

end Run

/-- The kernel's result is N / S. -/
theorem kerOut_coe :
    kerOut (qArr (up X) (up Wq)) (plainArr (up X) (up Wk)) (plainArr (up X) (up Wv)) i d
      = Ideal.div ((N X Wq Wk Wv i d : ℝ) : EReal) ((S X Wq Wk i : ℝ) : EReal) := by
  have hs : ∀ t b, kscore (qArr (up X) (up Wq)) (plainArr (up X) (up Wk)) i t b
      = (((fun t b => f X Wq Wk i (FoldBlocks.blockEquiv h4 (t, b))) t b : ℝ) : EReal) := by
    intro t b
    rw [kscore_coe, ← key_eq]
  have hv : ∀ t b, plainArr (up X) (up Wv) (ix2 (key t b) d)
      = (((fun t b => (fun j => P X Wv j d) (FoldBlocks.blockEquiv h4 (t, b))) t b : ℝ) : EReal) := by
    intro t b
    rw [plainArr_coe, ← key_eq]
  have hK := krun_eq i d _ _ _ _ _ hs hv 4 le_rfl
  have hA := Lib.OnlineAttn.acc_blocks h4 (f X Wq Wk i) (fun j => P X Wv j d) univ_nonempty
  have hS := Lib.OnlineLse.run_blocks_snd h4 (f X Wq Wk i) univ_nonempty
  unfold kerOut
  rw [hK]
  exact congrArg₂ Ideal.div hA hS

/-! ## The two programs agree -/

/-- On real inputs the blockwise kernel's result equals the reference's, entry by entry. -/
theorem kernel_eq_reference (x : SX.Idx → EReal) (wq wk wv : SW.Idx → EReal)
    (hx : ∀ j, ∃ r : ℝ, x j = (r : EReal)) (hwq : ∀ j, ∃ r : ℝ, wq j = (r : EReal))
    (hwk : ∀ j, ∃ r : ℝ, wk j = (r : EReal)) (hwv : ∀ j, ∃ r : ℝ, wv j = (r : EReal))
    (i : Fin 4096) (d : Fin 1024) :
    kerOut (qArr x wq) (plainArr x wk) (plainArr x wv) i d = refOut x wq wk wv i d := by
  choose X hX using hx
  choose Wq hWq using hwq
  choose Wk hWk using hwk
  choose Wv hWv using hwv
  obtain rfl : x = up X := funext hX
  obtain rfl : wq = up Wq := funext hWq
  obtain rfl : wk = up Wk := funext hWk
  obtain rfl : wv = up Wv := funext hWv
  exact (kerOut_coe X Wq Wk Wv i d).trans (refOut_coe X Wq Wk Wv i d).symm

end Cert.Attn.Bridge
-- ==== Proof.Claims.lean ====
/-
  The five claims.

  Frames: the two kernel programs' frames are the generated ones; the reference has no kernel, and its frame is its
  generated run with the result dropped.  The idealization rewrote nothing, so `preserves` is trivial.

  The algebraic claim.  The idealized kernel's run ends with its result array at `kerArr` of the three arrays its first
  region leaves — q = (x·Wq)·2⁻⁵, k = x·Wk, v = x·Wv — that is, entry (i, d) is numerator over sum of the 4-block
  online-softmax recurrence for query row i.  The reference's run ends at ∑ⱼ (exp (sᵢⱼ − maxᵢ) / ∑ exp) · vⱼ with
  sᵢⱼ = (qᵢ·kⱼ)·(1/√1024).  Under the precondition every entry of the four arguments is a real number, and then the
  two are one function: 1/√1024 = 2⁻⁵ moves across the contraction, the recurrence ends at the row maximum, the row's
  sum of shifted exponentials (at least 1, so the quotient is an ordinary one) and the weighted sum of the values, and
  a quotient of a sum is the sum of the quotients.
-/
import proofs.«151747_j26431228739710_2_alg».proof.Defs
import proofs.«151747_j26431228739710_2_alg».proof.Proof.Gen.Kernel.Frame
import proofs.«151747_j26431228739710_2_alg».proof.Proof.Gen.KernelIdeal.Frame
import proofs.«151747_j26431228739710_2_alg».proof.Proof.Gen.ReferenceIdeal.Run
import proofs.«151747_j26431228739710_2_alg».proof.Proof.Gen.ReferenceIdeal.Read
import proofs.«151747_j26431228739710_2_alg».proof.Proof.Gen.Pre_finite_inputs
import proofs.«151747_j26431228739710_2_alg».proof.Proof.Spec
import proofs.«151747_j26431228739710_2_alg».proof.Proof.ValueRun
import proofs.«151747_j26431228739710_2_alg».proof.Proof.QkvValue
import proofs.«151747_j26431228739710_2_alg».proof.Proof.AttnValue
import proofs.«151747_j26431228739710_2_alg».proof.Proof.RefValue
import proofs.«151747_j26431228739710_2_alg».proof.Proof.Finite
import proofs.«151747_j26431228739710_2_alg».proof.Proof.Bridge

set_option maxRecDepth 16384

noncomputable section

namespace Cert.Proof.Claims

open Idealize.ShloMosaic Idealize.ShloMosaic.TcCoe Idealize.SL.Sem Idealize.ShloMosaic.ValueIdx

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

section Kernel

open Cert.KernelIdeal Cert.KernelIdeal.Gen

/-- The idealized kernel's result array, from the launch memory: the second region's array function of the first
    region's three arrays, each a function of the arguments. -/
theorem kernel_result (m : (ℓ : Loc nD τ sig) → Buf (Elt Ideal) ℓ) (ρ : Dev nD → PrngReg) (c : Dev nD) :
    W2 (F := Ideal) m ρ c (Proc.devRef .tc main_v1)
      = Cert.Attn.kerArr
          (Cert.Attn.qArr (m ((c.tc : Thread nD τ).loc main_arg0)) (m ((c.tc : Thread nD τ).loc main_arg1)))
          (Cert.Attn.plainArr (m ((c.tc : Thread nD τ).loc main_arg0)) (m ((c.tc : Thread nD τ).loc main_arg2)))
          (Cert.Attn.plainArr (m ((c.tc : Thread nD τ).loc main_arg0)) (m ((c.tc : Thread nD τ).loc main_arg3))) := by
  refine (Cert.Attn.Run.W2_result (F := Ideal) m ρ c).trans ?_
  refine (Cert.Attn.Value.region1_arr (V1 (F := Ideal) m ρ) c).trans ?_
  rw [Cert.Attn.Run.V1_q (F := Ideal) m ρ c, Cert.Attn.Run.V1_k (F := Ideal) m ρ c, Cert.Attn.Run.V1_v (F := Ideal) m ρ c,
    Cert.Attn.Qkv.arr_q (V0 (F := Ideal) m ρ) c, Cert.Attn.Qkv.arr_k (V0 (F := Ideal) m ρ) c,
    Cert.Attn.Qkv.arr_v (V0 (F := Ideal) m ρ) c]

end Kernel

/-- The idealized kernel and the idealized reference, from memories agreeing on the arguments, end with equal
    results. -/
theorem algebraic : Cert.algebraic_KernelIdeal_ReferenceIdeal := by
  intro m ρ m' ρ' hpre hagree
  refine ⟨fun c => Cert.KernelIdeal.Gen.W2 (F := Ideal) m ρ c (Proc.devRef .tc Cert.KernelIdeal.main_v1),
    Cert.Attn.Run.run_result (F := Ideal) m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2]
  refine (Cert.ReferenceIdeal.Read.val_main_v20_eq (F := Ideal) _ _ _ _).trans ?_
  refine Eq.trans ?_ (kernel_result m ρ c).symm
  obtain ⟨hx, hq, hk, hv⟩ := Cert.Attn.Finite.entries_real _ _ _ _ (hpre c)
  funext j
  obtain ⟨i, d, rfl⟩ : ∃ (i : Fin 4096) (d : Fin 1024), j = ix2 i d := ⟨j 0, j 1, eq_ix2 j⟩
  rw [Cert.Attn.Ref.ref_apply]
  exact (Cert.Attn.Bridge.kernel_eq_reference _ _ _ _ hx hq hk hv i d).symm

end Cert.Proof.Claims

end
-- ==== Proof.lean ====
/-
  Attention over 4096 rows of width 1024, written as two kernels, against its plain reference.

  The kernel program projects x (4096×1024) by three 1024×1024 weights in a first kernel, q = (x·Wq)·2⁻⁵, k = x·Wk,
  v = x·Wv, eight blocks of 512 rows; a second kernel, per block of 512 query rows, walks the 4096 keys in 4 blocks of
  1024 carrying a running maximum, a running sum of shifted exponentials and a running numerator, and stores
  numerator / sum.  The reference computes softmax ((x·Wq)(x·Wk)ᵀ · (1/√1024)) · (x·Wv) in one piece.

  On the extended reals, from arguments whose entries are all finite, the two results are equal entry by entry:
  1/√1024 is 2⁻⁵; a real factor moves across a finite sum of reals; the online recurrence ends at the row's maximum,
  at its sum of exponentials shifted by that maximum (which is at least 1) and at the values' sum weighted by those
  exponentials; and the quotient of that weighted sum by the row sum is the sum of the quotients times the values.
  The modules under Proof/ carry this out; this file assembles the claim: the three frames, the (empty) list of
  idealization rewrites, and the equality of the two results.
-/
import proofs.«151747_j26431228739710_2_alg».proof.Defs
import proofs.«151747_j26431228739710_2_alg».proof.Proof.Gen.Kernel
import proofs.«151747_j26431228739710_2_alg».proof.Proof.Gen.Kernel.Skeleton
import proofs.«151747_j26431228739710_2_alg».proof.Proof.Gen.Kernel.Loops
import proofs.«151747_j26431228739710_2_alg».proof.Proof.Gen.Kernel.Launch
import proofs.«151747_j26431228739710_2_alg».proof.Proof.Gen.Kernel.Points
import proofs.«151747_j26431228739710_2_alg».proof.Proof.Gen.Kernel.Frame
import proofs.«151747_j26431228739710_2_alg».proof.Proof.Gen.KernelIdeal
import proofs.«151747_j26431228739710_2_alg».proof.Proof.Gen.KernelIdeal.Skeleton
import proofs.«151747_j26431228739710_2_alg».proof.Proof.Gen.KernelIdeal.Loops
import proofs.«151747_j26431228739710_2_alg».proof.Proof.Gen.KernelIdeal.Launch
import proofs.«151747_j26431228739710_2_alg».proof.Proof.Gen.KernelIdeal.Points
import proofs.«151747_j26431228739710_2_alg».proof.Proof.Gen.KernelIdeal.Frame
import proofs.«151747_j26431228739710_2_alg».proof.Proof.Gen.ReferenceIdeal
import proofs.«151747_j26431228739710_2_alg».proof.Proof.Gen.Pre_finite_inputs
import proofs.«151747_j26431228739710_2_alg».proof.Proof.Gen.ReferenceIdeal.Run
import proofs.«151747_j26431228739710_2_alg».proof.Proof.Gen.ReferenceIdeal.Read
import proofs.«151747_j26431228739710_2_alg».proof.Proof.Claims
import Idealize.ShloMosaic.Adequacy
import Idealize.ShloMosaic.Init

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_finite_inputs.Gen.facts,
    Cert.Proof.Claims.frame_k, Cert.Proof.Claims.frame_ki, Cert.Proof.Claims.frame_ri, Cert.Proof.Claims.preserves,
    Cert.Proof.Claims.algebraic⟩

end Cert.Proof

end
